-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩

abbrev nBuf : Space → Nat
  | .hbm => 75
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x1, .f32⟩
  | .hbm, ⟨55, _⟩ => ⟨S1x64, .f32⟩
  | .hbm, ⟨56, _⟩ => ⟨S100000x64, .f32⟩
  | .hbm, ⟨57, _⟩ => ⟨S100000x1, .f32⟩
  | .hbm, ⟨58, _⟩ => ⟨S100000x40, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x40, .f32⟩
  | .hbm, ⟨68, _⟩ => ⟨S_, .f32⟩
  | .hbm, ⟨69, _⟩ => ⟨S100000x40, .f32⟩
  | .hbm, ⟨70, _⟩ => ⟨S1600000x1, .i32⟩
  | .hbm, ⟨71, _⟩ => ⟨S100000x40, .f32⟩
  | .hbm, ⟨72, _⟩ => ⟨S100000x1, .f32⟩
  | .hbm, ⟨73, _⟩ => ⟨S1x40, .f32⟩
  | .hbm, ⟨74, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x40, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x40, .f32⟩
  | .hbm, ⟨78, _⟩ => ⟨S_, .f32⟩
  | .hbm, ⟨79, _⟩ => ⟨S100000x40, .f32⟩
  | .hbm, ⟨80, _⟩ => ⟨S1600000x1, .i32⟩
  | .hbm, ⟨81, _⟩ => ⟨S100000x40, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x40, .f32⟩
  | .hbm, ⟨102, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_call3_cst_0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_cst_1 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_v60 : Ref sig .tc := ⟨.hbm, 102, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel program's run with its RESULT named: every weakly fair execution of @main terminates, nothing
  faulting, the argument arrays end as launched, and the result array `main_v48` ends at what the last segment boundary
  holds there — the contents `W12` that the generated frame certificate folds through @main's twelve segments (five host
  stretches, then region, stretch, region, stretch, region, stretch, region). The frame certificate states the same run
  with the result forgotten; here the final state's reading of every unscoped buffer against `W12` is kept for the result
  buffer too.
-/
import proofs.«173783_j58110907515587_1_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, read at the end: the result buffer and each argument buffer against the last
    boundary's contents. -/
theorem run : θ_run defs (onTc (τ := τ) (main (F := F))) ⟨m, fun _ => 0, ρ⟩ (fun r => ∀ c : Dev nD,
      r.2.mem ((c.tc : Thread nD τ).loc main_v48) = W12 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v48 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunOut

end
-- ==== Proof.RefLayers.lean ====
/-
  The reference's four dense layers, each as ONE function of the arrays it reads.

  A graph-convolution layer first scales row `r` of its input by the source normalisation `n r` and multiplies by the
  weights (`scaledMatmul`), then — after the edge aggregation, which is not here — scales row `r` of the aggregate by the
  destination normalisation, adds the bias along the row (`normBias`), and ends in a rectifier (layer one) or in a
  row-wise log-softmax (layer two): `y − max_row y − log Σ_row exp (y − max_row y)`.
  The normalisation enters as a one-column array `[100000, 1]` and the bias as a one-row array `[1, b]`.
-/
import proofs.«173783_j58110907515587_1_alg».proof.ReferenceIdeal
import proofs.«173783_j58110907515587_1_alg».proof.Proof.Gen.ReferenceIdeal
import Idealize.ShloMosaic.PureOps.Ideal

noncomputable section

namespace Cert.ReferenceIdeal.Layers

open Cert.ReferenceIdeal Cert.ReferenceIdeal.Facts₀ Idealize.ShloMosaic

/-- Layer one's transform: rows of `X` scaled by the column `n1`, times `W`. -/
def scaledMatmul1 (X : FVec Ideal S100000x128 .f32) (n1 : FVec Ideal S100000x1 .f32) (W : FVec Ideal S128x64 .f32) :
    FVec Ideal S100000x64 .f32 :=
  Host.dotGeneral (F := Ideal) dot_S100000x128_S128x64_S100000x64_1_0_0_1_n_n none
    (mulf X (broadcastInDim S100000x128 ![0, 1] bcast_S100000x1_S100000x128_0_1 n1)) W

/-- Layer two's transform: rows of `H` scaled by the column `n1`, times `W`. -/
def scaledMatmul2 (H : FVec Ideal S100000x64 .f32) (n1 : FVec Ideal S100000x1 .f32) (W : FVec Ideal S64x40 .f32) :
    FVec Ideal S100000x40 .f32 :=
  Host.dotGeneral (F := Ideal) dot_S100000x64_S64x40_S100000x40_1_0_0_1_n_n none
    (mulf H (broadcastInDim S100000x64 ![0, 1] bcast_S100000x1_S100000x64_0_1 n1)) W

/-- Layer one's tail: rows of the aggregate `A` scaled by the column `n1`, plus the row `b1`, then the rectifier. -/
def normBiasRelu (A : FVec Ideal S100000x64 .f32) (n1 : FVec Ideal S100000x1 .f32) (b1 : FVec Ideal S1x64 .f32) :
    FVec Ideal S100000x64 .f32 :=
  maximumf
    (addf (mulf A (broadcastInDim S100000x64 ![0, 1] bcast_S100000x1_S100000x64_0_1 n1))
      (broadcastInDim S100000x64 ![0, 1] bcast_S1x64_S100000x64_0_1 b1))
    (broadcastInDim S100000x64 ![] bcast_S_S100000x64 (constant (F := Ideal) S_ .f32 0x00000000#32))

/-- Layer two's scaled aggregate plus bias, before the log-softmax. -/
def normBias2 (A : FVec Ideal S100000x40 .f32) (n1 : FVec Ideal S100000x1 .f32) (b1 : FVec Ideal S1x40 .f32) :
    FVec Ideal S100000x40 .f32 :=
  addf (mulf A (broadcastInDim S100000x40 ![0, 1] bcast_S100000x1_S100000x40_0_1 n1))
    (broadcastInDim S100000x40 ![0, 1] bcast_S1x40_S100000x40_0_1 b1)

/-- The row maximum of `y`, spread back over the rows (the maximum is taken from `-∞`, and once more against `-∞`). -/
def rowMaxSpread (y : FVec Ideal S100000x40 .f32) : FVec Ideal S100000x40 .f32 :=
  broadcastInDim S100000x40 ![0, 1] bcast_S100000x1_S100000x40_0_1
    (broadcastInDim S100000x1 ![0] bcast_S100000_S100000x1_0
      (maximumf (broadcastInDim S100000 ![] bcast_S_S100000 (constant (F := Ideal) S_ .f32 0xFF800000#32))
        (Host.reduce (FloatOps.maximumf (F := Ideal)) y (constant (F := Ideal) S_ .f32 0xFF800000#32) reducesTo_S100000x40_S100000_d1 h_S_)))

/-- The row-wise log-softmax: `(y − max) − log Σ exp (y − max)`. -/
def logSoftmaxRows (y : FVec Ideal S100000x40 .f32) : FVec Ideal S100000x40 .f32 :=
  subf (subf y (rowMaxSpread y))
    (broadcastInDim S100000x40 ![0, 1] bcast_S100000x1_S100000x40_0_1
      (Host.log (F := Ideal)
        (broadcastInDim S100000x1 ![0] bcast_S100000_S100000x1_0
          (Host.reduceAdd (F := Ideal) (Host.exp (F := Ideal) (subf y (rowMaxSpread y))) (constant (F := Ideal) S_ .f32 0x00000000#32)
            reducesTo_S100000x40_S100000_d1 h_S_))))

end Cert.ReferenceIdeal.Layers

end
-- ==== Proof.RefGlue.lean ====
/-
  The reference's host-side pieces around its dense layers, and the whole forward pass as one function of the seven
  argument arrays.

  `degree a` counts, per node, the edges whose endpoint list `a` names it (a scatter-add of ones into zeros);
  `degNorm a` is `degree^(-1/2)` where the degree is positive and `0` elsewhere (the reciprocal square root is taken of
  `max degree 1`); `aggregate` gathers row `src e` of the transformed features for every edge `e` (a negative index
  wrapped by the node count) and scatter-adds it into row `dst e`; a vector becomes a column `[n, 1]` or a row `[1, b]`
  by a broadcast. `forward` composes them with the four dense layers: transform, aggregate, normalise-bias-rectify,
  transform, aggregate, normalise-bias, row-wise log-softmax.
-/
import proofs.«173783_j58110907515587_1_alg».proof.Proof.RefLayers

noncomputable section

namespace Cert.ReferenceIdeal.Layers

open Cert.ReferenceIdeal Cert.ReferenceIdeal.Facts₀ Idealize.ShloMosaic

/-- Per node, the number of edges whose endpoint list names it. -/
def degree (a : (⟨S1600000, .i32⟩ : BufTy).Contents (Elt Ideal)) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 a)
    (broadcastInDim S1600000 ![] bcast_S_S1600000 (constant (F := Ideal) S_ .f32 0x3F800000#32))

/-- `degree^(-1/2)` where the degree is positive, `0` elsewhere. -/
def degNorm (a : (⟨S1600000, .i32⟩ : BufTy).Contents (Elt Ideal)) : FVec Ideal S100000 .f32 :=
  select (cmpf .ogt (degree a) (broadcastInDim S100000 ![] bcast_S_S100000 (constant (F := Ideal) S_ .f32 0x00000000#32)))
    (Host.rsqrt (F := Ideal) (maximumf (degree a) (broadcastInDim S100000 ![] bcast_S_S100000 (constant (F := Ideal) S_ .f32 0x3F800000#32))))
    (broadcastInDim S100000 ![] bcast_S_S100000 (id (constant (F := Ideal) S_ .f32 0x00000000#32)))

/-- The gather's index column: each source index, a negative one wrapped by the node count. -/
def wrappedIdx (a1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt a1 (broadcastInDim S1600000 ![] bcast_S_S1600000 (constantI S_ 32 0#32)))
      (addi a1 (broadcastInDim S1600000 ![] bcast_S_S1600000 (constantI S_ 32 100000#32))) a1)

/-- Layer one's edge aggregation: row `src e` of `h` added into row `dst e`, over all edges. -/
def aggregate1 (h : FVec Ideal S100000x64 .f32) (a1 a2 : (⟨S1600000, .i32⟩ : BufTy).Contents (Elt Ideal)) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 a2)
    (Host.gather gather_S100000x64_S1600000x1_S1600000x64_1_0_n_n_0_1_164 h (wrappedIdx a1))

/-- Layer two's edge aggregation. -/
def aggregate2 (h : FVec Ideal S100000x40 .f32) (a1 a2 : (⟨S1600000, .i32⟩ : BufTy).Contents (Elt Ideal)) : FVec Ideal S100000x40 .f32 :=
  Host.scatterAdd (F := Ideal) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 a2)
    (Host.gather gather_S100000x40_S1600000x1_S1600000x40_1_0_n_n_0_1_140 h (wrappedIdx a1))

/-- A node vector as a column. -/
def col (n : FVec Ideal S100000 .f32) : FVec Ideal S100000x1 .f32 :=
  broadcastInDim S100000x1 ![0] bcast_S100000_S100000x1_0 n

/-- The first bias as a row. -/
def row64 (b : FVec Ideal S64 .f32) : FVec Ideal S1x64 .f32 := broadcastInDim S1x64 ![1] bcast_S64_S1x64_1 b

/-- The second bias as a row. -/
def row40 (b : FVec Ideal S40 .f32) : FVec Ideal S1x40 .f32 := broadcastInDim S1x40 ![1] bcast_S40_S1x40_1 b

/-- The first layer's output: transform, aggregate, normalise, bias, rectify. -/
def hidden (a0 : FVec Ideal S100000x128 .f32) (a1 a2 : (⟨S1600000, .i32⟩ : BufTy).Contents (Elt Ideal)) (a3 : FVec Ideal S128x64 .f32)
    (a4 : FVec Ideal S64 .f32) : FVec Ideal S100000x64 .f32 :=
  normBiasRelu (aggregate1 (scaledMatmul1 a0 (col (degNorm a1)) a3) a1 a2) (col (degNorm a2)) (row64 a4)

/-- The whole forward pass. -/
def forward (a0 : FVec Ideal S100000x128 .f32) (a1 a2 : (⟨S1600000, .i32⟩ : BufTy).Contents (Elt Ideal)) (a3 : FVec Ideal S128x64 .f32)
    (a4 : FVec Ideal S64 .f32) (a5 : FVec Ideal S64x40 .f32) (a6 : FVec Ideal S40 .f32) : FVec Ideal S100000x40 .f32 :=
  logSoftmaxRows (normBias2 (aggregate2 (scaledMatmul2 (hidden a0 a1 a2 a3 a4) (col (degNorm a1)) a5) a1 a2) (col (degNorm a2)) (row40 a6))

end Cert.ReferenceIdeal.Layers

end
-- ==== Proof.KernelChase.lean ====
/-
  What each of the idealized kernel program's four regions finds in its three input arrays, and what the host stretches
  between the regions compute, as functions of the seven argument arrays.

  @main's twelve segments fold the launch memory into the boundary contents `W0 … W12` of the frame certificate. No host
  operation and no region writes an argument array, so an argument is read back through the fold to the launch memory.
  The two normalisation vectors are computed by the first four host stretches from the edge lists alone
  (`degNorm`), and are handed to a region as a column by a reshape; the two biases are handed over as a row by a reshape;
  the stretch before regions 1 and 3 gathers rows of the previous region's output along the source list and scatter-adds
  them along the destination list (`aggregate1`, `aggregate2`).
-/
import proofs.«173783_j58110907515587_1_alg».proof.Proof.Gen.KernelIdeal.Frame
import proofs.«173783_j58110907515587_1_alg».proof.Proof.RefGlue

set_option maxRecDepth 16384

noncomputable section

namespace Cert.KernelIdeal.Chase

open Idealize.ShloMosaic Idealize.ShloMosaic.TcCoe Idealize.SL.Sem
open Cert.KernelIdeal Cert.KernelIdeal.Gen
open Cert.ReferenceIdeal.Layers

variable (m : (ℓ : Loc nD τ sig) → Buf (Elt Ideal) ℓ) (ρ : Dev nD → PrngReg) (c : Dev nD)

/-- A buffer that no operation of a host stretch writes keeps its contents across the stretch. -/
macro "not_written" : tactic => `(tactic| exact StableHlo.after_of_forall_not_mem _ _ (List.forall_iff_forall_mem.mp (by
  simp only [hostOps0, hostOps0_1, hostOps0_2, hostOps0_3, hostOps0_4, hostOps1, hostOps2, hostOps3, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## The arguments, read back through the fold -/

/-- Up to region 0's entry nothing writes an argument: the five host stretches only write their own results. -/
theorem W5_arg0 : W5 m ρ c (Proc.devRef .tc main_arg0) = m ((c : Thread nD τ).loc main_arg0) := by
  dsimp only [W5, W4, W3, W2, W1, W0, hostOps0_4, hostOps0_3, hostOps0_2, hostOps0_1, hostOps0]; after_results_simp <;> rfl
theorem W5_arg1 : W5 m ρ c (Proc.devRef .tc main_arg1) = m ((c : Thread nD τ).loc main_arg1) := by
  dsimp only [W5, W4, W3, W2, W1, W0, hostOps0_4, hostOps0_3, hostOps0_2, hostOps0_1, hostOps0]; after_results_simp <;> rfl
theorem W5_arg2 : W5 m ρ c (Proc.devRef .tc main_arg2) = m ((c : Thread nD τ).loc main_arg2) := by
  dsimp only [W5, W4, W3, W2, W1, W0, hostOps0_4, hostOps0_3, hostOps0_2, hostOps0_1, hostOps0]; after_results_simp <;> rfl
theorem W5_arg3 : W5 m ρ c (Proc.devRef .tc main_arg3) = m ((c : Thread nD τ).loc main_arg3) := by
  dsimp only [W5, W4, W3, W2, W1, W0, hostOps0_4, hostOps0_3, hostOps0_2, hostOps0_1, hostOps0]; after_results_simp <;> rfl
theorem W5_arg4 : W5 m ρ c (Proc.devRef .tc main_arg4) = m ((c : Thread nD τ).loc main_arg4) := by
  dsimp only [W5, W4, W3, W2, W1, W0, hostOps0_4, hostOps0_3, hostOps0_2, hostOps0_1, hostOps0]; after_results_simp <;> rfl
theorem W5_arg5 : W5 m ρ c (Proc.devRef .tc main_arg5) = m ((c : Thread nD τ).loc main_arg5) := by
  dsimp only [W5, W4, W3, W2, W1, W0, hostOps0_4, hostOps0_3, hostOps0_2, hostOps0_1, hostOps0]; after_results_simp <;> rfl
theorem W5_arg6 : W5 m ρ c (Proc.devRef .tc main_arg6) = m ((c : Thread nD τ).loc main_arg6) := by
  dsimp only [W5, W4, W3, W2, W1, W0, hostOps0_4, hostOps0_3, hostOps0_2, hostOps0_1, hostOps0]; after_results_simp <;> rfl

/-! ## The two normalisation vectors

Each is a selection, made by an outlined function of three operations, between the reciprocal square root of the
clamped degree and zero, on whether the degree is positive. The outlined function's three operations are read for ANY
contents of the buffers they read (so that only layout is compared); the degree, its comparison with zero and its clamped
reciprocal square root are read off the first stretch. -/

/-- The outlined selection of the source side, over any contents. -/
theorem where_src (W : Valuation τ sig (Elt Ideal)) :
    StableHlo.after (hostOps0_1 (F := Ideal)) W (Proc.devRef .tc main_v12)
      = select (W (Proc.devRef .tc main_v8) : (⟨S100000, .i1⟩ : BufTy).Contents (Elt Ideal))
          (W (Proc.devRef .tc main_v11) : (⟨S100000, .f32⟩ : BufTy).Contents (Elt Ideal))
          (broadcastInDim S100000 ![] Facts₀.bcast_S_S100000
            (id (W (Proc.devRef .tc main_cst_4) : (⟨S_, .f32⟩ : BufTy).Contents (Elt Ideal)))) := by
  dsimp only [hostOps0_1]; after_results_simp; rfl

/-- The outlined selection of the destination side, over any contents. -/
theorem where_dst (W : Valuation τ sig (Elt Ideal)) :
    StableHlo.after (hostOps0_3 (F := Ideal)) W (Proc.devRef .tc main_v18)
      = select (W (Proc.devRef .tc main_v14) : (⟨S100000, .i1⟩ : BufTy).Contents (Elt Ideal))
          (W (Proc.devRef .tc main_v17) : (⟨S100000, .f32⟩ : BufTy).Contents (Elt Ideal))
          (broadcastInDim S100000 ![] Facts₀.bcast_S_S100000
            (id (W (Proc.devRef .tc main_cst_7) : (⟨S_, .f32⟩ : BufTy).Contents (Elt Ideal)))) := by
  dsimp only [hostOps0_3]; after_results_simp; rfl

theorem W1_v8 : W1 m ρ c (Proc.devRef .tc main_v8)
    = cmpf .ogt (degree (m ((c : Thread nD τ).loc main_arg1)))
        (broadcastInDim S100000 ![] Facts₀.bcast_S_S100000 (constant (F := Ideal) S_ .f32 0x00000000#32)) := by
  dsimp only [W1, W0, hostOps0]; after_results_simp; unfold degree; rfl
theorem W1_v11 : W1 m ρ c (Proc.devRef .tc main_v11)
    = Host.rsqrt (F := Ideal) (maximumf (degree (m ((c : Thread nD τ).loc main_arg1)))
        (broadcastInDim S100000 ![] Facts₀.bcast_S_S100000 (constant (F := Ideal) S_ .f32 0x3F800000#32))) := by
  dsimp only [W1, W0, hostOps0]; after_results_simp; unfold degree; rfl
theorem W1_cst4 : W1 m ρ c (Proc.devRef .tc main_cst_4) = constant (F := Ideal) S_ .f32 0x00000000#32 := by
  dsimp only [W1, W0, hostOps0]; after_results_simp <;> rfl

/-- The source normalisation vector: a function of the source list alone. -/
theorem W2_normSrc : W2 m ρ c (Proc.devRef .tc main_v12) = degNorm (m ((c : Thread nD τ).loc main_arg1)) := by
  refine (where_src (W1 m ρ c)).trans ?_
  rw [W1_v8, W1_v11, W1_cst4]
  rfl

theorem W3_v14 : W3 m ρ c (Proc.devRef .tc main_v14)
    = cmpf .ogt (degree (m ((c : Thread nD τ).loc main_arg2)))
        (broadcastInDim S100000 ![] Facts₀.bcast_S_S100000 (constant (F := Ideal) S_ .f32 0x00000000#32)) := by
  dsimp only [W3, W2, W1, W0, hostOps0_2, hostOps0_1, hostOps0]; after_results_simp; unfold degree; rfl
theorem W3_v17 : W3 m ρ c (Proc.devRef .tc main_v17)
    = Host.rsqrt (F := Ideal) (maximumf (degree (m ((c : Thread nD τ).loc main_arg2)))
        (broadcastInDim S100000 ![] Facts₀.bcast_S_S100000 (constant (F := Ideal) S_ .f32 0x3F800000#32))) := by
  dsimp only [W3, W2, W1, W0, hostOps0_2, hostOps0_1, hostOps0]; after_results_simp; unfold degree; rfl
theorem W3_cst7 : W3 m ρ c (Proc.devRef .tc main_cst_7) = constant (F := Ideal) S_ .f32 0x00000000#32 := by
  dsimp only [W3, W2, W1, W0, hostOps0_2, hostOps0_1, hostOps0]; after_results_simp <;> rfl

/-- The destination normalisation vector: the same function of the destination list. -/
theorem W4_normDst : W4 m ρ c (Proc.devRef .tc main_v18) = degNorm (m ((c : Thread nD τ).loc main_arg2)) := by
  refine (where_dst (W3 m ρ c)).trans ?_
  rw [W3_v14, W3_v17, W3_cst7]
  rfl

theorem W4_normSrc : W4 m ρ c (Proc.devRef .tc main_v12) = degNorm (m ((c : Thread nD τ).loc main_arg1)) :=
  ((show W4 m ρ c (Proc.devRef .tc main_v12) = W3 m ρ c (Proc.devRef .tc main_v12) from by not_written).trans
    (show W3 m ρ c (Proc.devRef .tc main_v12) = W2 m ρ c (Proc.devRef .tc main_v12) from by not_written)).trans (W2_normSrc m ρ c)
theorem W5_normSrc : W5 m ρ c (Proc.devRef .tc main_v12) = degNorm (m ((c : Thread nD τ).loc main_arg1)) :=
  (show W5 m ρ c (Proc.devRef .tc main_v12) = W4 m ρ c (Proc.devRef .tc main_v12) from by not_written).trans (W4_normSrc m ρ c)
theorem W5_normDst : W5 m ρ c (Proc.devRef .tc main_v18) = degNorm (m ((c : Thread nD τ).loc main_arg2)) :=
  (show W5 m ρ c (Proc.devRef .tc main_v18) = W4 m ρ c (Proc.devRef .tc main_v18) from by not_written).trans (W4_normDst m ρ c)

/-- Region 0 is handed the source normalisation as a column, by a reshape. -/
theorem reshape_src (W : Valuation τ sig (Elt Ideal)) :
    StableHlo.after (hostOps0_4 (F := Ideal)) W (Proc.devRef .tc main_v19)
      = shapeCast S100000x1 (W (Proc.devRef .tc main_v12) : (⟨S100000, .f32⟩ : BufTy).Contents (Elt Ideal)) Facts₀.shapeCasts_S100000_S100000x1 := by
  dsimp only [hostOps0_4]; after_results_simp; rfl
theorem W5_v19 : W5 m ρ c (Proc.devRef .tc main_v19)
    = shapeCast S100000x1 (degNorm (m ((c : Thread nD τ).loc main_arg1))) Facts₀.shapeCasts_S100000_S100000x1 := by
  refine (reshape_src (W4 m ρ c)).trans ?_
  rw [W4_normSrc]

/-! ## Through region 0 (`W6`): only its output array changes -/

theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_normSrc : W6 m ρ c (Proc.devRef .tc main_v12) = degNorm (m ((c : Thread nD τ).loc main_arg1)) :=
  (W6_of_ne m ρ c main_v12 (by decide)).trans (W5_normSrc m ρ c)
theorem W6_normDst : W6 m ρ c (Proc.devRef .tc main_v18) = degNorm (m ((c : Thread nD τ).loc main_arg2)) :=
  (W6_of_ne m ρ c main_v18 (by decide)).trans (W5_normDst m ρ c)

/-! ## The stretch before region 1 (`W7`) -/

theorem W7_arg1 : W7 m ρ c (Proc.devRef .tc main_arg1) = m ((c : Thread nD τ).loc main_arg1) := by
  refine (show W7 m ρ c (Proc.devRef .tc main_arg1) = W6 m ρ c (Proc.devRef .tc main_arg1) from by not_written).trans (W6_arg1 m ρ c)
theorem W7_arg2 : W7 m ρ c (Proc.devRef .tc main_arg2) = m ((c : Thread nD τ).loc main_arg2) := by
  refine (show W7 m ρ c (Proc.devRef .tc main_arg2) = W6 m ρ c (Proc.devRef .tc main_arg2) from by not_written).trans (W6_arg2 m ρ c)
theorem W7_arg5 : W7 m ρ c (Proc.devRef .tc main_arg5) = m ((c : Thread nD τ).loc main_arg5) := by
  refine (show W7 m ρ c (Proc.devRef .tc main_arg5) = W6 m ρ c (Proc.devRef .tc main_arg5) from by not_written).trans (W6_arg5 m ρ c)
theorem W7_arg6 : W7 m ρ c (Proc.devRef .tc main_arg6) = m ((c : Thread nD τ).loc main_arg6) := by
  refine (show W7 m ρ c (Proc.devRef .tc main_arg6) = W6 m ρ c (Proc.devRef .tc main_arg6) from by not_written).trans (W6_arg6 m ρ c)
theorem W7_normSrc : W7 m ρ c (Proc.devRef .tc main_v12) = degNorm (m ((c : Thread nD τ).loc main_arg1)) := by
  refine (show W7 m ρ c (Proc.devRef .tc main_v12) = W6 m ρ c (Proc.devRef .tc main_v12) from by not_written).trans (W6_normSrc m ρ c)
theorem W7_normDst : W7 m ρ c (Proc.devRef .tc main_v18) = degNorm (m ((c : Thread nD τ).loc main_arg2)) := by
  refine (show W7 m ρ c (Proc.devRef .tc main_v18) = W6 m ρ c (Proc.devRef .tc main_v18) from by not_written).trans (W6_normDst m ρ c)
/-- Region 1's first array: the aggregate of region 0's output along the edges. -/
theorem W7_v30 : W7 m ρ c (Proc.devRef .tc main_v30)
    = aggregate1 (W6 m ρ c (Proc.devRef .tc main_v20)) (m ((c : Thread nD τ).loc main_arg1)) (m ((c : Thread nD τ).loc main_arg2)) := by
  dsimp only [W7, hostOps1]; after_results_simp; rw [W6_arg1, W6_arg2]; unfold aggregate1 wrappedIdx; rfl
/-- Region 1's second array: the destination normalisation as a column. -/
theorem W7_v31 : W7 m ρ c (Proc.devRef .tc main_v31)
    = shapeCast S100000x1 (degNorm (m ((c : Thread nD τ).loc main_arg2))) Facts₀.shapeCasts_S100000_S100000x1 := by
  dsimp only [W7, hostOps1]; after_results_simp; rw [W6_normDst]; rfl
/-- Region 1's third array: the first bias as a row. -/
theorem W7_v32 : W7 m ρ c (Proc.devRef .tc main_v32)
    = shapeCast S1x64 (m ((c : Thread nD τ).loc main_arg4)) Facts₀.shapeCasts_S64_S1x64 := by
  dsimp only [W7, hostOps1]; after_results_simp; rw [W6_arg4]; rfl

/-! ## Through region 1 (`W8`) and the reshape before region 2 (`W9`) -/

theorem W8_arg1 : W8 m ρ c (Proc.devRef .tc main_arg1) = m ((c : Thread nD τ).loc main_arg1) :=
  (W8_of_ne m ρ c main_arg1 (by decide)).trans (W7_arg1 m ρ c)
theorem W8_arg2 : W8 m ρ c (Proc.devRef .tc main_arg2) = m ((c : Thread nD τ).loc main_arg2) :=
  (W8_of_ne m ρ c main_arg2 (by decide)).trans (W7_arg2 m ρ c)
theorem W8_arg5 : W8 m ρ c (Proc.devRef .tc main_arg5) = m ((c : Thread nD τ).loc main_arg5) :=
  (W8_of_ne m ρ c main_arg5 (by decide)).trans (W7_arg5 m ρ c)
theorem W8_arg6 : W8 m ρ c (Proc.devRef .tc main_arg6) = m ((c : Thread nD τ).loc main_arg6) :=
  (W8_of_ne m ρ c main_arg6 (by decide)).trans (W7_arg6 m ρ c)
theorem W8_normSrc : W8 m ρ c (Proc.devRef .tc main_v12) = degNorm (m ((c : Thread nD τ).loc main_arg1)) :=
  (W8_of_ne m ρ c main_v12 (by decide)).trans (W7_normSrc m ρ c)
theorem W8_normDst : W8 m ρ c (Proc.devRef .tc main_v18) = degNorm (m ((c : Thread nD τ).loc main_arg2)) :=
  (W8_of_ne m ρ c main_v18 (by decide)).trans (W7_normDst m ρ c)

theorem W9_arg1 : W9 m ρ c (Proc.devRef .tc main_arg1) = m ((c : Thread nD τ).loc main_arg1) := by
  refine (show W9 m ρ c (Proc.devRef .tc main_arg1) = W8 m ρ c (Proc.devRef .tc main_arg1) from by not_written).trans (W8_arg1 m ρ c)
theorem W9_arg2 : W9 m ρ c (Proc.devRef .tc main_arg2) = m ((c : Thread nD τ).loc main_arg2) := by
  refine (show W9 m ρ c (Proc.devRef .tc main_arg2) = W8 m ρ c (Proc.devRef .tc main_arg2) from by not_written).trans (W8_arg2 m ρ c)
theorem W9_arg5 : W9 m ρ c (Proc.devRef .tc main_arg5) = m ((c : Thread nD τ).loc main_arg5) := by
  refine (show W9 m ρ c (Proc.devRef .tc main_arg5) = W8 m ρ c (Proc.devRef .tc main_arg5) from by not_written).trans (W8_arg5 m ρ c)
theorem W9_arg6 : W9 m ρ c (Proc.devRef .tc main_arg6) = m ((c : Thread nD τ).loc main_arg6) := by
  refine (show W9 m ρ c (Proc.devRef .tc main_arg6) = W8 m ρ c (Proc.devRef .tc main_arg6) from by not_written).trans (W8_arg6 m ρ c)
theorem W9_normDst : W9 m ρ c (Proc.devRef .tc main_v18) = degNorm (m ((c : Thread nD τ).loc main_arg2)) := by
  refine (show W9 m ρ c (Proc.devRef .tc main_v18) = W8 m ρ c (Proc.devRef .tc main_v18) from by not_written).trans (W8_normDst m ρ c)
/-- Region 2's first array is region 1's output, untouched by the reshape between them. -/
theorem W9_v33 : W9 m ρ c (Proc.devRef .tc main_v33) = W8 m ρ c (Proc.devRef .tc main_v33) := by
  not_written
/-- Region 2's second array: the source normalisation as a column. -/
theorem W9_v34 : W9 m ρ c (Proc.devRef .tc main_v34)
    = shapeCast S100000x1 (degNorm (m ((c : Thread nD τ).loc main_arg1))) Facts₀.shapeCasts_S100000_S100000x1 := by
  dsimp only [W9, hostOps2]; after_results_simp; rw [W8_normSrc]; rfl

/-! ## Through region 2 (`W10`) and the stretch before region 3 (`W11`) -/

theorem W10_arg1 : W10 m ρ c (Proc.devRef .tc main_arg1) = m ((c : Thread nD τ).loc main_arg1) :=
  (W10_of_ne m ρ c main_arg1 (by decide)).trans (W9_arg1 m ρ c)
theorem W10_arg2 : W10 m ρ c (Proc.devRef .tc main_arg2) = m ((c : Thread nD τ).loc main_arg2) :=
  (W10_of_ne m ρ c main_arg2 (by decide)).trans (W9_arg2 m ρ c)
theorem W10_arg6 : W10 m ρ c (Proc.devRef .tc main_arg6) = m ((c : Thread nD τ).loc main_arg6) :=
  (W10_of_ne m ρ c main_arg6 (by decide)).trans (W9_arg6 m ρ c)
theorem W10_normDst : W10 m ρ c (Proc.devRef .tc main_v18) = degNorm (m ((c : Thread nD τ).loc main_arg2)) :=
  (W10_of_ne m ρ c main_v18 (by decide)).trans (W9_normDst m ρ c)

/-- Region 3's first array: the aggregate of region 2's output along the edges. -/
theorem W11_v45 : W11 m ρ c (Proc.devRef .tc main_v45)
    = aggregate2 (W10 m ρ c (Proc.devRef .tc main_v35)) (m ((c : Thread nD τ).loc main_arg1)) (m ((c : Thread nD τ).loc main_arg2)) := by
  dsimp only [W11, hostOps3]; after_results_simp; rw [W10_arg1, W10_arg2]; unfold aggregate2 wrappedIdx; rfl
/-- Region 3's second array: the destination normalisation as a column. -/
theorem W11_v46 : W11 m ρ c (Proc.devRef .tc main_v46)
    = shapeCast S100000x1 (degNorm (m ((c : Thread nD τ).loc main_arg2))) Facts₀.shapeCasts_S100000_S100000x1 := by
  dsimp only [W11, hostOps3]; after_results_simp; rw [W10_normDst]; rfl
/-- Region 3's third array: the second bias as a row. -/
theorem W11_v47 : W11 m ρ c (Proc.devRef .tc main_v47)
    = shapeCast S1x40 (m ((c : Thread nD τ).loc main_arg6)) Facts₀.shapeCasts_S40_S1x40 := by
  dsimp only [W11, hostOps3]; after_results_simp; rw [W10_arg6]; rfl

end Cert.KernelIdeal.Chase

end
-- ==== Proof.LibColumnBroadcast.lean ====
/-
  A column broadcast along the rows' second axis, read at an index: a general layout fact, independent of any program.
-/
import Idealize.ShloMosaic.Lib.Pipeline.Value
import Idealize.ShloMosaic.Lib.ValueIdx

namespace Idealize.ShloMosaic.ValueIdx

open Idealize.ShloMosaic

variable {α : Type}

/-- An `[a, 1]` array (one column) broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of an `[a, 1]` array (one column) to `[a, b]` along both axes reads, at `(p, c)`, the column's
    entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of a `[1, b]` array (one row) to `[a, b]` along both axes reads, at `(p, c)`, the row's entry
    of column `c`. -/
theorem broadcastInDim_1b_ab_apply {a b : ℕ} (v : (⟨2, ![1, b]⟩ : Shape).Idx → α)
    (h : (⟨2, ![1, b]⟩ : Shape).BroadcastsInDim ⟨2, ![a, b]⟩ ![0, 1])
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A `broadcast_in_dim` of an `[a]` vector to `[a, 1]` (its entries down one column) reads, at `(p, u)`, entry `p`. -/
theorem broadcastInDim_a_a1_apply {a : ℕ} (v : (⟨1, ![a]⟩ : Shape).Idx → α)
    (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A `broadcast_in_dim` of a `[b]` vector to `[1, b]` (its entries along one row) reads, at `(u, c)`, entry `c`. -/
theorem broadcastInDim_b_1b_apply {b : ℕ} (v : (⟨1, ![b]⟩ : Shape).Idx → α)
    (h : (⟨1, ![b]⟩ : Shape).BroadcastsInDim ⟨2, ![1, b]⟩ ![1])
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Idealize.ShloMosaic.ValueIdx
-- ==== Proof.Transform1.lean ====
/-
  Layer one's transform, from blocks to the array.

  The output array has 100000 rows and 64 columns. Entry `(r, e)` of the reference's transform is
  `Σ_k (X (r, k) · n (r, 0)) · W (k, e)`, `k` over the 128 input features: row `r` of the input scaled by the
  normalisation of row `r`, times column `e` of the weights. The kernel runs over 20 points; point `t` holds rows
  `5000 t … 5000 t + 4999` of the input and of the normalisation column and all of the weights, and stores the block
  whose entry `(q, e)` is the same sum over the block's row `q` (a matrix product of the scaled block with the weights
  into a zero accumulator; the change of float format on the operands is the identity on the extended reals). Row `q`
  of point `t`'s blocks is row `5000 t + q` of the arrays, so the two sums agree term by term; every row `r` lies in
  the block of the point `r / 5000`, so the blocks fill the array.
-/
import proofs.«173783_j58110907515587_1_alg».proof.Proof.Gen.KernelIdeal.Frame
import proofs.«173783_j58110907515587_1_alg».proof.Proof.RefLayers
import proofs.«173783_j58110907515587_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Cert.KernelIdeal
open Idealize.ShloMosaic.ValueIdx

namespace Cert.KernelIdeal.Transform1
namespace Blk

/-- The left operand's index for output index `i` and contraction index `u`: row of `i`, column `u`. -/
theorem lhs_0 (i : S5000x64.Idx) (u : dot_S5000x128_S128x64_S5000x64_1_0_0_1_n_n.contr.Idx) :
    (dot_S5000x128_S128x64_S5000x64_1_0_0_1_n_n.lhsIdx i u 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_1 (i : S5000x64.Idx) (u : dot_S5000x128_S128x64_S5000x64_1_0_0_1_n_n.contr.Idx) :
    (dot_S5000x128_S128x64_S5000x64_1_0_0_1_n_n.lhsIdx i u 1).val = (u ⟨0, by decide⟩).val :=
  dot_S5000x128_S128x64_S5000x64_1_0_0_1_n_n.lhsIdx_val_of_single rfl i u
/-- The right operand's index: row `u`, column of `i`. -/
theorem rhs_0 (i : S5000x64.Idx) (u : dot_S5000x128_S128x64_S5000x64_1_0_0_1_n_n.contr.Idx) :
    (dot_S5000x128_S128x64_S5000x64_1_0_0_1_n_n.rhsIdx i u 0).val = (u ⟨0, by decide⟩).val :=
  dot_S5000x128_S128x64_S5000x64_1_0_0_1_n_n.rhsIdx_val_of_single rfl i u
theorem rhs_1 (i : S5000x64.Idx) (u : dot_S5000x128_S128x64_S5000x64_1_0_0_1_n_n.contr.Idx) :
    (dot_S5000x128_S128x64_S5000x64_1_0_0_1_n_n.rhsIdx i u 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

end Blk

/-- Entry `(q, e)` of the block the body stores: the sum over `k` of (row `q` of the input block, scaled by the
    block's normalisation of row `q`) times column `e` of the weights. -/
theorem pay_apply (x0 : Vec Ideal S5000x128 .f32) (x1 : Vec Ideal S5000x1 .f32) (x2 : Vec Ideal S128x64 .f32)
    (q : Fin 5000) (e : Fin 64) :
    Gen.k0_pay1 (F := Ideal) x0 x1 x2 (ix2 q e)
      = ∑ k : Fin 128, (x0 (ix2 q k) * x1 (ix2 q (0 : Fin 1))) * x2 (ix2 k e) := by
  unfold Gen.k0_pay1
  refine (Ideal.matmul_constant_zero_apply dot_S5000x128_S128x64_S5000x64_1_0_0_1_n_n none _ _ (ix2 q e)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 q e) ((contrEquiv1 dot_S5000x128_S128x64_S5000x64_1_0_0_1_n_n 128 rfl rfl).symm k) = ix2 q k :=
    funext fun a => Fin.ext (by
      match a with
      | ⟨0, _⟩ => exact Blk.lhs_0 _ _
      | ⟨1, _⟩ => exact (Blk.lhs_1 _ _).trans hk)
  have er : dot_S5000x128_S128x64_S5000x64_1_0_0_1_n_n.rhsIdx (ix2 q e) ((contrEquiv1 dot_S5000x128_S128x64_S5000x64_1_0_0_1_n_n 128 rfl rfl).symm k) = ix2 k e :=
    funext fun a => Fin.ext (by
      match a with
      | ⟨0, _⟩ => exact (Blk.rhs_0 _ _).trans hk
      | ⟨1, _⟩ => exact Blk.rhs_1 _ _)
  rw [el, er, truncf_apply, truncf_apply, mulf_apply, shapeCast_self, broadcastTo_a1_ab_apply]

namespace Whole

/-- The left operand's index for output index `i` and contraction index `u`: row of `i`, column `u`. -/
theorem lhs_0 (i : Cert.ReferenceIdeal.S100000x64.Idx) (u : Cert.ReferenceIdeal.dot_S100000x128_S128x64_S100000x64_1_0_0_1_n_n.contr.Idx) :
    (Cert.ReferenceIdeal.dot_S100000x128_S128x64_S100000x64_1_0_0_1_n_n.lhsIdx i u 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide),
    dif_pos (show (0 : Fin Cert.ReferenceIdeal.S100000x128.rank) ∈ Cert.ReferenceIdeal.dot_S100000x128_S128x64_S100000x64_1_0_0_1_n_n.lhsNonContracting by decide)]
  rfl
theorem lhs_1 (i : Cert.ReferenceIdeal.S100000x64.Idx) (u : Cert.ReferenceIdeal.dot_S100000x128_S128x64_S100000x64_1_0_0_1_n_n.contr.Idx) :
    (Cert.ReferenceIdeal.dot_S100000x128_S128x64_S100000x64_1_0_0_1_n_n.lhsIdx i u 1).val = (u ⟨0, by decide⟩).val :=
  Cert.ReferenceIdeal.dot_S100000x128_S128x64_S100000x64_1_0_0_1_n_n.lhsIdx_val_of_single rfl i u
/-- The right operand's index: row `u`, column of `i`. -/
theorem rhs_0 (i : Cert.ReferenceIdeal.S100000x64.Idx) (u : Cert.ReferenceIdeal.dot_S100000x128_S128x64_S100000x64_1_0_0_1_n_n.contr.Idx) :
    (Cert.ReferenceIdeal.dot_S100000x128_S128x64_S100000x64_1_0_0_1_n_n.rhsIdx i u 0).val = (u ⟨0, by decide⟩).val :=
  Cert.ReferenceIdeal.dot_S100000x128_S128x64_S100000x64_1_0_0_1_n_n.rhsIdx_val_of_single rfl i u
theorem rhs_1 (i : Cert.ReferenceIdeal.S100000x64.Idx) (u : Cert.ReferenceIdeal.dot_S100000x128_S128x64_S100000x64_1_0_0_1_n_n.contr.Idx) :
    (Cert.ReferenceIdeal.dot_S100000x128_S128x64_S100000x64_1_0_0_1_n_n.rhsIdx i u 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide),
    dif_pos (show (1 : Fin Cert.ReferenceIdeal.S128x64.rank) ∈ Cert.ReferenceIdeal.dot_S100000x128_S128x64_S100000x64_1_0_0_1_n_n.rhsNonContracting by decide)]
  rfl

end Whole

/-- Entry `(r, e)` of the reference's transform: the same sum, over row `r` of the whole arrays. -/
theorem ref_apply (X : FVec Ideal Cert.ReferenceIdeal.S100000x128 .f32) (n : FVec Ideal Cert.ReferenceIdeal.S100000x1 .f32)
    (W : FVec Ideal Cert.ReferenceIdeal.S128x64 .f32) (r : Fin 100000) (e : Fin 64) :
    Cert.ReferenceIdeal.Layers.scaledMatmul1 X n W (ix2 r e)
      = ∑ k : Fin 128, (X (ix2 r k) * n (ix2 r (0 : Fin 1))) * W (ix2 k e) := by
  unfold Cert.ReferenceIdeal.Layers.scaledMatmul1
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r e) ((contrEquiv1 Cert.ReferenceIdeal.dot_S100000x128_S128x64_S100000x64_1_0_0_1_n_n 128 rfl rfl).symm k) = ix2 r k :=
    funext fun a => Fin.ext (by
      match a with
      | ⟨0, _⟩ => exact Whole.lhs_0 _ _
      | ⟨1, _⟩ => exact (Whole.lhs_1 _ _).trans hk)
  have er : Cert.ReferenceIdeal.dot_S100000x128_S128x64_S100000x64_1_0_0_1_n_n.rhsIdx (ix2 r e) ((contrEquiv1 Cert.ReferenceIdeal.dot_S100000x128_S128x64_S100000x64_1_0_0_1_n_n 128 rfl rfl).symm k) = ix2 k e :=
    funext fun a => Fin.ext (by
      match a with
      | ⟨0, _⟩ => exact (Whole.rhs_0 _ _).trans hk
      | ⟨1, _⟩ => exact Whole.rhs_1 _ _)
  rw [el, er, mulf_apply, broadcastInDim_a1_ab_apply]

theorem hz : (![0, 0] : Fin 2 → Nat) = fun _ => 0 := funext fun a => by fin_cases a <;> rfl

/-- The printed index maps, decided over the grid: point `t` takes block `t` of the rows of the input, of the
    normalisation column and of the output, and the one block of the weights. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `q` of point `t`'s input block is row `5000 t + q` of the input array. -/
theorem blk0_apply (V : (c : Dev nD) → (b : Ref sig .tc) → Buf (Elt Ideal) ((c : Thread nD τ).loc b)) (c : Dev nD)
    (t : Fin cfg0.N) (q : Fin 5000) (k : Fin 128) (r : Fin 100000) (hr : r.val = t.val * 5000 + q.val) :
    Gen.iblk0 (F := Ideal) V c 0 t (ix2 q k) = V c main_arg0 (ix2 r k) := by
  obtain ⟨e0, e1, -⟩ := idx_facts t
  show V c main_arg0 (((cfg0.win 0).blk t).view.emb (ix2 q k)) = V c main_arg0 (ix2 r k)
  refine congrArg (V c main_arg0) (funext fun a => Fin.ext ?_)
  match a with
  | ⟨0, _⟩ => show win0_0.index t (0 : Fin 2) * 5000 + 1 * q.val = r.val; rw [e0]; omega
  | ⟨1, _⟩ => show win0_0.index t (1 : Fin 2) * 128 + 1 * k.val = k.val; rw [e1]; omega

/-- Row `q` of point `t`'s block of the normalisation column is row `5000 t + q` of the column. -/
theorem blk1_apply (V : (c : Dev nD) → (b : Ref sig .tc) → Buf (Elt Ideal) ((c : Thread nD τ).loc b)) (c : Dev nD)
    (t : Fin cfg0.N) (q : Fin 5000) (r : Fin 100000) (hr : r.val = t.val * 5000 + q.val) :
    Gen.iblk0 (F := Ideal) V c 1 t (ix2 q (0 : Fin 1)) = V c main_v19 (ix2 r (0 : Fin 1)) := by
  obtain ⟨-, -, e0, e1, -⟩ := idx_facts t
  show V c main_v19 (((cfg0.win 1).blk t).view.emb (ix2 q (0 : Fin 1))) = V c main_v19 (ix2 r (0 : Fin 1))
  refine congrArg (V c main_v19) (funext fun a => Fin.ext ?_)
  match a with
  | ⟨0, _⟩ => show win0_1.index t (0 : Fin 2) * 5000 + 1 * q.val = r.val; rw [e0]; omega
  | ⟨1, _⟩ => show win0_1.index t (1 : Fin 2) * 1 + 1 * 0 = 0; rw [e1]

/-- Every point's block of the weights is the whole weight array. -/
theorem blk2_apply (V : (c : Dev nD) → (b : Ref sig .tc) → Buf (Elt Ideal) ((c : Thread nD τ).loc b)) (c : Dev nD)
    (t : Fin cfg0.N) (k : Fin 128) (e : Fin 64) :
    Gen.iblk0 (F := Ideal) V c 2 t (ix2 k e) = V c main_arg3 (ix2 k e) := by
  obtain ⟨-, -, -, -, e0, e1, -⟩ := idx_facts t
  show V c main_arg3 (((cfg0.win 2).blk t).view.emb (ix2 k e)) = V c main_arg3 (ix2 k e)
  refine congrArg (V c main_arg3) (funext fun a => Fin.ext ?_)
  match a with
  | ⟨0, _⟩ => show win0_2.index t (0 : Fin 2) * 128 + 1 * k.val = k.val; rw [e0]; omega
  | ⟨1, _⟩ => show win0_2.index t (1 : Fin 2) * 64 + 1 * e.val = e.val; rw [e1]; omega

/-- Entry `(q, e)` of point `t`'s output block sits at `(5000 t + q, e)` of the output array. -/
theorem emb3 (t : Fin cfg0.N) (q : Fin 5000) (e : Fin 64) (r : Fin 100000) (hr : r.val = t.val * 5000 + q.val) :
    ((cfg0.win 3).blk t).view.emb (ix2 q e) = (ix2 r e : S100000x64.Idx) := by
  obtain ⟨-, -, -, -, -, -, e0, e1⟩ := idx_facts t
  refine funext fun a => Fin.ext ?_
  match a with
  | ⟨0, _⟩ => show win0_3.index t (0 : Fin 2) * 5000 + 1 * q.val = r.val; rw [e0]; omega
  | ⟨1, _⟩ => show win0_3.index t (1 : Fin 2) * 64 + 1 * e.val = e.val; rw [e1]; omega

theorem flushed_eq (V : (c : Dev nD) → (b : Ref sig .tc) → Buf (Elt Ideal) ((c : Thread nD τ).loc b)) (c : Dev nD) (t : Fin cfg0.N) :
    (Gen.dat0 (F := Ideal) V c).flushed 3 t = ((cfg0.win 3).blk t).view.read (Elt Ideal)
      (Cert.ReferenceIdeal.Layers.scaledMatmul1 (V c main_arg0) (V c main_v19) (V c main_arg3)) := by
  show (cfg0.win 3).cut (grid0.coords t) ((Gen.dat0 (F := Ideal) V c).after 3 t) = _
  rw [Gen.after0_3]
  unfold Gen.out0_3
  rw [View.canon_unit_zero hz]
  simp only [View.ld_unit_zero (S := S5000x128) hz, View.ld_unit_zero (S := S5000x1) hz, View.ld_unit_zero (S := S128x64) hz]
  funext y
  obtain ⟨q, e, rfl⟩ : ∃ (q : Fin 5000) (e : Fin 64), y = ix2 q e := ⟨y 0, y 1, eq_ix2 y⟩
  have hN : grid0.N = 20 := Gen.N_0
  have ht : t.val < grid0.N := t.isLt
  let r : Fin 100000 := ⟨t.val * 5000 + q.val, by have := q.isLt; omega⟩
  have hr : r.val = t.val * 5000 + q.val := rfl
  show Gen.k0_pay1 (F := Ideal) (Gen.iblk0 V c 0 t) (Gen.iblk0 V c 1 t) (Gen.iblk0 V c 2 t) (ix2 q e)
    = Cert.ReferenceIdeal.Layers.scaledMatmul1 (V c main_arg0) (V c main_v19) (V c main_arg3) (((cfg0.win 3).blk t).view.emb (ix2 q e))
  rw [emb3 t q e r hr]
  refine (pay_apply _ _ _ q e).trans ((Finset.sum_congr rfl fun k _ => ?_).trans (ref_apply _ _ _ r e).symm)
  rw [blk0_apply V c t q k r hr, blk1_apply V c t q r hr, blk2_apply V c t k e]

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v20).slice (win0_3.rect t)).set ↔ _
  rw [View.set_slice_whole, Rect.mem_set_unit]
  exact Iff.rfl

/-- Row `r` of the output array is written by the point `r / 5000`. -/
theorem cover (i : S100000x64.Idx) : ∃ t : Fin cfg0.N, (cfg0.win 3).flush t = true ∧ i ∈ ((cfg0.win 3).blk t).view.set := by
  have hN : grid0.N = 20 := Gen.N_0
  have hi0 : (i 0).val < 100000 := (i 0).isLt
  have hi1 : (i 1).val < 64 := (i 1).isLt
  have hlt : (i 0).val / 5000 < grid0.N := by omega
  obtain ⟨-, -, -, -, -, -, e0, e1⟩ := idx_facts ⟨(i 0).val / 5000, hlt⟩
  refine ⟨⟨(i 0).val / 5000, hlt⟩, Gen.flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e1]; omega

/-- After the run the output array holds the reference's transform of the arrays the region was entered with. -/
theorem array_eq (V : (c : Dev nD) → (b : Ref sig .tc) → Buf (Elt Ideal) ((c : Thread nD τ).loc b)) (c : Dev nD) :
    (Cert.KernelIdeal.Gen.dat0 (F := Ideal) V c).arrAt 3 cfg0.N
      = Cert.ReferenceIdeal.Layers.scaledMatmul1 (V c main_arg0) (V c main_v19) (V c main_arg3) :=
  (Gen.dat0 (F := Ideal) V c).arrAt_eq_of_cover 3 _ (fun t _ => flushed_eq V c t) cover

end Cert.KernelIdeal.Transform1
end
-- ==== Proof.NormBias1.lean ====
/-
  Layer one's tail on the kernel side. The region visits 20 points; point `t` handles rows `5000 t … 5000 t + 4999`
  of the `[100000, 64]` aggregate `A`, of the one-column normalisation `n` and all of the one-row bias `b`, and writes
  back the same rows of the result. Entry `(r, e)` of the result is `max (A (r, e) · n (r, 0) + b (0, e)) 0` on both
  sides; the blocks tile the rows, so the array after the last point is that function everywhere.
-/
import proofs.«173783_j58110907515587_1_alg».proof.Proof.Gen.KernelIdeal.Frame
import proofs.«173783_j58110907515587_1_alg».proof.Proof.RefLayers
import proofs.«173783_j58110907515587_1_alg».proof.Proof.LibColumnBroadcast
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Cert.KernelIdeal Cert.KernelIdeal.Gen
open Idealize.ShloMosaic.ValueIdx

namespace Cert.KernelIdeal.NormBias1

/-- The zero offsets of a whole-block access, however they are spelt. -/
theorem hz : (![0, 0] : Fin 2 → Nat) = fun _ => 0 := funext fun a => by fin_cases a <;> rfl

/-- The body's arithmetic at entry `(q, e)` of a block: the aggregate's entry times the row's normalisation plus the
    column's bias, cut off below at zero. -/
theorem pay_apply (x0 : Vec Ideal S5000x64 .f32) (x1 : Vec Ideal S5000x1 .f32) (x2 : Vec Ideal S1x64 .f32)
    (q : Fin 5000) (e : Fin 64) :
    k1_pay1 (F := Ideal) x0 x1 x2 (ix2 q e)
      = max (x0 (ix2 q e) * x1 (ix2 q (0 : Fin 1)) + x2 (ix2 (0 : Fin 1) e)) (Ideal.ofBits .f32 0x00000000#32) := by
  unfold k1_pay1
  simp only [shapeCast_self]
  rw [maximumf_apply, addf_apply, mulf_apply, broadcast_apply, broadcastTo_a1_ab_apply, broadcastTo_1b_ab_apply]
  rfl

/-- The reference's layer at entry `(r, e)` of the array: the same expression of the whole arrays. -/
theorem ref_apply (A : FVec Ideal S100000x64 .f32) (n : FVec Ideal S100000x1 .f32) (b : FVec Ideal S1x64 .f32)
    (r : Fin 100000) (e : Fin 64) :
    Cert.ReferenceIdeal.Layers.normBiasRelu A n b (ix2 r e)
      = max (A (ix2 r e) * n (ix2 r (0 : Fin 1)) + b (ix2 (0 : Fin 1) e)) (Ideal.ofBits .f32 0x00000000#32) := by
  unfold Cert.ReferenceIdeal.Layers.normBiasRelu
  rw [maximumf_apply, addf_apply, mulf_apply, broadcastInDim_a1_ab_apply, broadcastInDim_1b_ab_apply]
  rfl

/-- The same at any index, its coordinates read off it. -/
theorem ref_apply_idx (A : FVec Ideal S100000x64 .f32) (n : FVec Ideal S100000x1 .f32) (b : FVec Ideal S1x64 .f32)
    (i : S100000x64.Idx) :
    Cert.ReferenceIdeal.Layers.normBiasRelu A n b i
      = max (A i * n (ix2 (i 0) (0 : Fin 1)) + b (ix2 (0 : Fin 1) (i 1))) (Ideal.ofBits .f32 0x00000000#32) := by
  obtain ⟨r, e, rfl⟩ : ∃ (r : Fin 100000) (e : Fin 64), i = ix2 r e := ⟨i 0, i 1, eq_ix2 i⟩
  exact ref_apply A n b r e

/-- The windows' block indices, decided over the grid: the three row-blocked windows are at block `t` along the rows
    and block 0 along the columns; the bias window stays at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the layer's result on the arrays as the region finds them: entry `(q, e)` of
    the block is entry `(5000 t + q, e)` of the array, and reads row `5000 t + q` of the aggregate and of the
    normalisation and column `e` of the bias on both sides. -/
theorem flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.ReferenceIdeal.Layers.normBiasRelu (V c main_v30) (V c main_v31) (V c main_v32)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts t
  funext y
  obtain ⟨q, e, rfl⟩ : ∃ (q : Fin 5000) (e : Fin 64), y = ix2 q e := ⟨y 0, y 1, eq_ix2 y⟩
  show k1_pay1 (F := Ideal) (iblk1 V c 0 t) (iblk1 V c 1 t) (iblk1 V c 2 t) (ix2 q e)
    = Cert.ReferenceIdeal.Layers.normBiasRelu (V c main_v30) (V c main_v31) (V c main_v32)
        (((cfg1.win 3).blk t).view.emb (ix2 q e))
  refine (pay_apply _ _ _ q e).trans ?_
  rw [ref_apply_idx]
  have hq : q.val < 5000 := q.isLt
  have he : e.val < 64 := e.isLt
  have h0 : (iblk1 V c 0 t : Vec Ideal S5000x64 .f32) (ix2 q e)
      = (V c main_v30 : S100000x64.Idx → Elt Ideal .f32) (((cfg1.win 3).blk t).view.emb (ix2 q e)) := by
    show (V c main_v30 : S100000x64.Idx → Elt Ideal .f32) (((cfg1.win 0).blk t).view.emb (ix2 q e)) = _
    refine congrArg _ ?_
    funext a; apply Fin.ext
    match a with
    | ⟨0, _⟩ => show win1_0.index t (0 : Fin 2) * 5000 + 1 * q.val = win1_3.index t (0 : Fin 2) * 5000 + 1 * q.val; omega
    | ⟨1, _⟩ => show win1_0.index t (1 : Fin 2) * 64 + 1 * e.val = win1_3.index t (1 : Fin 2) * 64 + 1 * e.val; omega
  have h1 : (iblk1 V c 1 t : Vec Ideal S5000x1 .f32) (ix2 q (0 : Fin 1))
      = (V c main_v31 : S100000x1.Idx → Elt Ideal .f32) (ix2 ((((cfg1.win 3).blk t).view.emb (ix2 q e)) 0) (0 : Fin 1)) := by
    show (V c main_v31 : S100000x1.Idx → Elt Ideal .f32) (((cfg1.win 1).blk t).view.emb (ix2 q (0 : Fin 1))) = _
    refine congrArg _ ?_
    funext a; apply Fin.ext
    match a with
    | ⟨0, _⟩ => show win1_1.index t (0 : Fin 2) * 5000 + 1 * q.val = win1_3.index t (0 : Fin 2) * 5000 + 1 * q.val; omega
    | ⟨1, _⟩ => show win1_1.index t (1 : Fin 2) * 1 + 1 * 0 = 0; omega
  have h2 : (iblk1 V c 2 t : Vec Ideal S1x64 .f32) (ix2 (0 : Fin 1) e)
      = (V c main_v32 : S1x64.Idx → Elt Ideal .f32) (ix2 (0 : Fin 1) ((((cfg1.win 3).blk t).view.emb (ix2 q e)) 1)) := by
    show (V c main_v32 : S1x64.Idx → Elt Ideal .f32) (((cfg1.win 2).blk t).view.emb (ix2 (0 : Fin 1) e)) = _
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * e.val = win1_3.index t (1 : Fin 2) * 64 + 1 * e.val; omega
  rw [h0, h1, h2]

/-- An index of the result array is in point `t`'s block iff each coordinate is in the block's range on its axis. -/
theorem mem_blk (t : Fin cfg1.N) (i : S100000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v33).slice (win1_3.rect t)).set ↔ _
  rw [View.set_slice_whole, Rect.mem_set_unit]
  exact Iff.rfl

/-- Every index of the result array is in the block of the point its row falls in: row `r` is in block `r / 5000`. -/
theorem cover (i : S100000x64.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 64 := (i 1).isLt
  let t : Fin cfg1.N := ⟨(i 0).val / 5000, by show (i 0).val / 5000 < grid1.N; omega⟩
  obtain ⟨-, -, -, -, -, -, e30, e31⟩ := idx_facts t
  have ht : t.val = (i 0).val / 5000 := rfl
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- THE ARRAY after the last point: the layer's result on the arrays as the region finds them. -/
theorem array_eq (V : (c : Dev nD) → (b : Ref sig .tc) → Buf (Elt Ideal) ((c : Thread nD τ).loc b)) (c : Dev nD) :
    (Cert.KernelIdeal.Gen.dat1 (F := Ideal) V c).arrAt 3 cfg1.N
      = Cert.ReferenceIdeal.Layers.normBiasRelu (V c main_v30) (V c main_v31) (V c main_v32) :=
  (dat1 (F := Ideal) V c).arrAt_eq_of_cover 3
    (Cert.ReferenceIdeal.Layers.normBiasRelu (V c main_v30) (V c main_v31) (V c main_v32))
    (fun t _ => flushed_eq V c t) cover

end Cert.KernelIdeal.NormBias1

end
-- ==== Proof.Transform2.lean ====
/-
  Layer two's transform, from blocks to the array.

  The output array has 100000 rows and 40 columns. Entry `(r, e)` of the reference's transform is
  `Σ_k (H (r, k) · n (r, 0)) · W (k, e)`, `k` over the 64 hidden features: row `r` of the hidden array scaled by the
  normalisation of row `r`, times column `e` of the weights. The kernel runs over 20 points; point `t` holds rows
  `5000 t … 5000 t + 4999` of the hidden array and of the normalisation column and all of the weights, and stores the
  block whose entry `(q, e)` is the same sum over the block's row `q` (a matrix product of the scaled block with the
  weights into a zero accumulator; the change of float format on the operands is the identity on the extended reals).
  Row `q` of point `t`'s blocks is row `5000 t + q` of the arrays, so the two sums agree term by term; every row `r`
  lies in the block of the point `r / 5000`, so the blocks fill the array.
-/
import proofs.«173783_j58110907515587_1_alg».proof.Proof.Gen.KernelIdeal.Frame
import proofs.«173783_j58110907515587_1_alg».proof.Proof.RefLayers
import proofs.«173783_j58110907515587_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Cert.KernelIdeal
open Idealize.ShloMosaic.ValueIdx

namespace Cert.KernelIdeal.Transform2
namespace Blk

/-- The left operand's index for output index `i` and contraction index `u`: row of `i`, column `u`. -/
theorem lhs_0 (i : S5000x40.Idx) (u : dot_S5000x64_S64x40_S5000x40_1_0_0_1_n_n.contr.Idx) :
    (dot_S5000x64_S64x40_S5000x40_1_0_0_1_n_n.lhsIdx i u 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl
theorem lhs_1 (i : S5000x40.Idx) (u : dot_S5000x64_S64x40_S5000x40_1_0_0_1_n_n.contr.Idx) :
    (dot_S5000x64_S64x40_S5000x40_1_0_0_1_n_n.lhsIdx i u 1).val = (u ⟨0, by decide⟩).val :=
  dot_S5000x64_S64x40_S5000x40_1_0_0_1_n_n.lhsIdx_val_of_single rfl i u
/-- The right operand's index: row `u`, column of `i`. -/
theorem rhs_0 (i : S5000x40.Idx) (u : dot_S5000x64_S64x40_S5000x40_1_0_0_1_n_n.contr.Idx) :
    (dot_S5000x64_S64x40_S5000x40_1_0_0_1_n_n.rhsIdx i u 0).val = (u ⟨0, by decide⟩).val :=
  dot_S5000x64_S64x40_S5000x40_1_0_0_1_n_n.rhsIdx_val_of_single rfl i u
theorem rhs_1 (i : S5000x40.Idx) (u : dot_S5000x64_S64x40_S5000x40_1_0_0_1_n_n.contr.Idx) :
    (dot_S5000x64_S64x40_S5000x40_1_0_0_1_n_n.rhsIdx i u 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

end Blk

/-- Entry `(q, e)` of the block the body stores: the sum over `k` of (row `q` of the input block, scaled by the
    block's normalisation of row `q`) times column `e` of the weights. -/
theorem pay_apply (x0 : Vec Ideal S5000x64 .f32) (x1 : Vec Ideal S5000x1 .f32) (x2 : Vec Ideal S64x40 .f32)
    (q : Fin 5000) (e : Fin 40) :
    Gen.k2_pay1 (F := Ideal) x0 x1 x2 (ix2 q e)
      = ∑ k : Fin 64, (x0 (ix2 q k) * x1 (ix2 q (0 : Fin 1))) * x2 (ix2 k e) := by
  unfold Gen.k2_pay1
  refine (Ideal.matmul_constant_zero_apply dot_S5000x64_S64x40_S5000x40_1_0_0_1_n_n none _ _ (ix2 q e)).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 q e) ((contrEquiv1 dot_S5000x64_S64x40_S5000x40_1_0_0_1_n_n 64 rfl rfl).symm k) = ix2 q k :=
    funext fun a => Fin.ext (by
      match a with
      | ⟨0, _⟩ => exact Blk.lhs_0 _ _
      | ⟨1, _⟩ => exact (Blk.lhs_1 _ _).trans hk)
  have er : dot_S5000x64_S64x40_S5000x40_1_0_0_1_n_n.rhsIdx (ix2 q e) ((contrEquiv1 dot_S5000x64_S64x40_S5000x40_1_0_0_1_n_n 64 rfl rfl).symm k) = ix2 k e :=
    funext fun a => Fin.ext (by
      match a with
      | ⟨0, _⟩ => exact (Blk.rhs_0 _ _).trans hk
      | ⟨1, _⟩ => exact Blk.rhs_1 _ _)
  rw [el, er, truncf_apply, truncf_apply, mulf_apply, shapeCast_self, shapeCast_self, broadcastTo_a1_ab_apply]

namespace Whole

/-- The left operand's index for output index `i` and contraction index `u`: row of `i`, column `u`. -/
theorem lhs_0 (i : Cert.ReferenceIdeal.S100000x40.Idx) (u : Cert.ReferenceIdeal.dot_S100000x64_S64x40_S100000x40_1_0_0_1_n_n.contr.Idx) :
    (Cert.ReferenceIdeal.dot_S100000x64_S64x40_S100000x40_1_0_0_1_n_n.lhsIdx i u 0).val = (i 0).val := by
  unfold DotDims.lhsIdx
  rw [dif_neg (show ¬(0 : Fin Cert.ReferenceIdeal.S100000x64.rank) ∈ Cert.ReferenceIdeal.dot_S100000x64_S64x40_S100000x40_1_0_0_1_n_n.lhsBatch by decide),
    dif_pos (show (0 : Fin Cert.ReferenceIdeal.S100000x64.rank) ∈ Cert.ReferenceIdeal.dot_S100000x64_S64x40_S100000x40_1_0_0_1_n_n.lhsNonContracting by decide)]
  rfl
theorem lhs_1 (i : Cert.ReferenceIdeal.S100000x40.Idx) (u : Cert.ReferenceIdeal.dot_S100000x64_S64x40_S100000x40_1_0_0_1_n_n.contr.Idx) :
    (Cert.ReferenceIdeal.dot_S100000x64_S64x40_S100000x40_1_0_0_1_n_n.lhsIdx i u 1).val = (u ⟨0, by decide⟩).val :=
  Cert.ReferenceIdeal.dot_S100000x64_S64x40_S100000x40_1_0_0_1_n_n.lhsIdx_val_of_single rfl i u
/-- The right operand's index: row `u`, column of `i`. -/
theorem rhs_0 (i : Cert.ReferenceIdeal.S100000x40.Idx) (u : Cert.ReferenceIdeal.dot_S100000x64_S64x40_S100000x40_1_0_0_1_n_n.contr.Idx) :
    (Cert.ReferenceIdeal.dot_S100000x64_S64x40_S100000x40_1_0_0_1_n_n.rhsIdx i u 0).val = (u ⟨0, by decide⟩).val :=
  Cert.ReferenceIdeal.dot_S100000x64_S64x40_S100000x40_1_0_0_1_n_n.rhsIdx_val_of_single rfl i u
theorem rhs_1 (i : Cert.ReferenceIdeal.S100000x40.Idx) (u : Cert.ReferenceIdeal.dot_S100000x64_S64x40_S100000x40_1_0_0_1_n_n.contr.Idx) :
    (Cert.ReferenceIdeal.dot_S100000x64_S64x40_S100000x40_1_0_0_1_n_n.rhsIdx i u 1).val = (i 1).val := by
  unfold DotDims.rhsIdx
  rw [dif_neg (show ¬(1 : Fin Cert.ReferenceIdeal.S64x40.rank) ∈ Cert.ReferenceIdeal.dot_S100000x64_S64x40_S100000x40_1_0_0_1_n_n.rhsBatch by decide),
    dif_pos (show (1 : Fin Cert.ReferenceIdeal.S64x40.rank) ∈ Cert.ReferenceIdeal.dot_S100000x64_S64x40_S100000x40_1_0_0_1_n_n.rhsNonContracting by decide)]
  rfl

end Whole

/-- Entry `(r, e)` of the reference's transform: the same sum, over row `r` of the whole arrays. -/
theorem ref_apply (X : FVec Ideal Cert.ReferenceIdeal.S100000x64 .f32) (n : FVec Ideal Cert.ReferenceIdeal.S100000x1 .f32)
    (W : FVec Ideal Cert.ReferenceIdeal.S64x40 .f32) (r : Fin 100000) (e : Fin 40) :
    Cert.ReferenceIdeal.Layers.scaledMatmul2 X n W (ix2 r e)
      = ∑ k : Fin 64, (X (ix2 r k) * n (ix2 r (0 : Fin 1))) * W (ix2 k e) := by
  unfold Cert.ReferenceIdeal.Layers.scaledMatmul2
  simp only [Host.dotGeneral]
  rw [Ideal.dotGeneral_apply, ← Equiv.sum_comp (contrEquiv1 Cert.ReferenceIdeal.dot_S100000x64_S64x40_S100000x40_1_0_0_1_n_n 64 rfl rfl).symm]
  refine Finset.sum_congr rfl fun k _ => ?_
  have hk := contrEquiv1_symm_val Cert.ReferenceIdeal.dot_S100000x64_S64x40_S100000x40_1_0_0_1_n_n 64 rfl rfl k
  have el : Cert.ReferenceIdeal.dot_S100000x64_S64x40_S100000x40_1_0_0_1_n_n.lhsIdx (ix2 r e) ((contrEquiv1 Cert.ReferenceIdeal.dot_S100000x64_S64x40_S100000x40_1_0_0_1_n_n 64 rfl rfl).symm k) = ix2 r k :=
    funext fun a => Fin.ext (by
      match a with
      | ⟨0, _⟩ => exact Whole.lhs_0 _ _
      | ⟨1, _⟩ => exact (Whole.lhs_1 _ _).trans hk)
  have er : Cert.ReferenceIdeal.dot_S100000x64_S64x40_S100000x40_1_0_0_1_n_n.rhsIdx (ix2 r e) ((contrEquiv1 Cert.ReferenceIdeal.dot_S100000x64_S64x40_S100000x40_1_0_0_1_n_n 64 rfl rfl).symm k) = ix2 k e :=
    funext fun a => Fin.ext (by
      match a with
      | ⟨0, _⟩ => exact (Whole.rhs_0 _ _).trans hk
      | ⟨1, _⟩ => exact Whole.rhs_1 _ _)
  rw [el, er, mulf_apply, broadcastInDim_a1_ab_apply]

theorem hz : (![0, 0] : Fin 2 → Nat) = fun _ => 0 := funext fun a => by fin_cases a <;> rfl

/-- The printed index maps, decided over the grid: point `t` takes block `t` of the rows of the input, of the
    normalisation column and of the output, and the one block of the weights. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `q` of point `t`'s input block is row `5000 t + q` of the input array. -/
theorem blk0_apply (V : (c : Dev nD) → (b : Ref sig .tc) → Buf (Elt Ideal) ((c : Thread nD τ).loc b)) (c : Dev nD)
    (t : Fin cfg2.N) (q : Fin 5000) (k : Fin 64) (r : Fin 100000) (hr : r.val = t.val * 5000 + q.val) :
    Gen.iblk2 (F := Ideal) V c 0 t (ix2 q k) = V c main_v33 (ix2 r k) := by
  obtain ⟨e0, e1, -⟩ := idx_facts t
  show V c main_v33 (((cfg2.win 0).blk t).view.emb (ix2 q k)) = V c main_v33 (ix2 r k)
  refine congrArg (V c main_v33) (funext fun a => Fin.ext ?_)
  match a with
  | ⟨0, _⟩ => show win2_0.index t (0 : Fin 2) * 5000 + 1 * q.val = r.val; rw [e0]; omega
  | ⟨1, _⟩ => show win2_0.index t (1 : Fin 2) * 64 + 1 * k.val = k.val; rw [e1]; omega

/-- Row `q` of point `t`'s block of the normalisation column is row `5000 t + q` of the column. -/
theorem blk1_apply (V : (c : Dev nD) → (b : Ref sig .tc) → Buf (Elt Ideal) ((c : Thread nD τ).loc b)) (c : Dev nD)
    (t : Fin cfg2.N) (q : Fin 5000) (r : Fin 100000) (hr : r.val = t.val * 5000 + q.val) :
    Gen.iblk2 (F := Ideal) V c 1 t (ix2 q (0 : Fin 1)) = V c main_v34 (ix2 r (0 : Fin 1)) := by
  obtain ⟨-, -, e0, e1, -⟩ := idx_facts t
  show V c main_v34 (((cfg2.win 1).blk t).view.emb (ix2 q (0 : Fin 1))) = V c main_v34 (ix2 r (0 : Fin 1))
  refine congrArg (V c main_v34) (funext fun a => Fin.ext ?_)
  match a with
  | ⟨0, _⟩ => show win2_1.index t (0 : Fin 2) * 5000 + 1 * q.val = r.val; rw [e0]; omega
  | ⟨1, _⟩ => show win2_1.index t (1 : Fin 2) * 1 + 1 * 0 = 0; rw [e1]

/-- Every point's block of the weights is the whole weight array. -/
theorem blk2_apply (V : (c : Dev nD) → (b : Ref sig .tc) → Buf (Elt Ideal) ((c : Thread nD τ).loc b)) (c : Dev nD)
    (t : Fin cfg2.N) (k : Fin 64) (e : Fin 40) :
    Gen.iblk2 (F := Ideal) V c 2 t (ix2 k e) = V c main_arg5 (ix2 k e) := by
  obtain ⟨-, -, -, -, e0, e1, -⟩ := idx_facts t
  show V c main_arg5 (((cfg2.win 2).blk t).view.emb (ix2 k e)) = V c main_arg5 (ix2 k e)
  refine congrArg (V c main_arg5) (funext fun a => Fin.ext ?_)
  match a with
  | ⟨0, _⟩ => show win2_2.index t (0 : Fin 2) * 64 + 1 * k.val = k.val; rw [e0]; omega
  | ⟨1, _⟩ => show win2_2.index t (1 : Fin 2) * 40 + 1 * e.val = e.val; rw [e1]; omega

/-- Entry `(q, e)` of point `t`'s output block sits at `(5000 t + q, e)` of the output array. -/
theorem emb3 (t : Fin cfg2.N) (q : Fin 5000) (e : Fin 40) (r : Fin 100000) (hr : r.val = t.val * 5000 + q.val) :
    ((cfg2.win 3).blk t).view.emb (ix2 q e) = (ix2 r e : S100000x40.Idx) := by
  obtain ⟨-, -, -, -, -, -, e0, e1⟩ := idx_facts t
  refine funext fun a => Fin.ext ?_
  match a with
  | ⟨0, _⟩ => show win2_3.index t (0 : Fin 2) * 5000 + 1 * q.val = r.val; rw [e0]; omega
  | ⟨1, _⟩ => show win2_3.index t (1 : Fin 2) * 40 + 1 * e.val = e.val; rw [e1]; omega

theorem flushed_eq (V : (c : Dev nD) → (b : Ref sig .tc) → Buf (Elt Ideal) ((c : Thread nD τ).loc b)) (c : Dev nD) (t : Fin cfg2.N) :
    (Gen.dat2 (F := Ideal) V c).flushed 3 t = ((cfg2.win 3).blk t).view.read (Elt Ideal)
      (Cert.ReferenceIdeal.Layers.scaledMatmul2 (V c main_v33) (V c main_v34) (V c main_arg5)) := by
  show (cfg2.win 3).cut (grid2.coords t) ((Gen.dat2 (F := Ideal) V c).after 3 t) = _
  rw [Gen.after2_3]
  unfold Gen.out2_3
  rw [View.canon_unit_zero hz]
  simp only [View.ld_unit_zero (S := S5000x64) hz, View.ld_unit_zero (S := S5000x1) hz, View.ld_unit_zero (S := S64x40) hz]
  funext y
  obtain ⟨q, e, rfl⟩ : ∃ (q : Fin 5000) (e : Fin 40), y = ix2 q e := ⟨y 0, y 1, eq_ix2 y⟩
  have hN : grid2.N = 20 := Gen.N_2
  have ht : t.val < grid2.N := t.isLt
  let r : Fin 100000 := ⟨t.val * 5000 + q.val, by have := q.isLt; omega⟩
  have hr : r.val = t.val * 5000 + q.val := rfl
  show Gen.k2_pay1 (F := Ideal) (Gen.iblk2 V c 0 t) (Gen.iblk2 V c 1 t) (Gen.iblk2 V c 2 t) (ix2 q e)
    = Cert.ReferenceIdeal.Layers.scaledMatmul2 (V c main_v33) (V c main_v34) (V c main_arg5) (((cfg2.win 3).blk t).view.emb (ix2 q e))
  rw [emb3 t q e r hr]
  refine (pay_apply _ _ _ q e).trans ((Finset.sum_congr rfl fun k _ => ?_).trans (ref_apply _ _ _ r e).symm)
  rw [blk0_apply V c t q k r hr, blk1_apply V c t q r hr, blk2_apply V c t k e]

/-- An index of the output array is in point `t`'s block iff each coordinate is in the block's range on its axis. -/
theorem mem_blk (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v35).slice (win2_3.rect t)).set ↔ _
  rw [View.set_slice_whole, Rect.mem_set_unit]
  exact Iff.rfl

/-- Row `r` of the output array is written by the point `r / 5000`. -/
theorem cover (i : S100000x40.Idx) : ∃ t : Fin cfg2.N, (cfg2.win 3).flush t = true ∧ i ∈ ((cfg2.win 3).blk t).view.set := by
  have hN : grid2.N = 20 := Gen.N_2
  have hi0 : (i 0).val < 100000 := (i 0).isLt
  have hi1 : (i 1).val < 40 := (i 1).isLt
  have hlt : (i 0).val / 5000 < grid2.N := by omega
  obtain ⟨-, -, -, -, -, -, e0, e1⟩ := idx_facts ⟨(i 0).val / 5000, hlt⟩
  refine ⟨⟨(i 0).val / 5000, hlt⟩, Gen.flush2_3 _, ?_⟩
  rw [mem_blk]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, hlt⟩ (1 : Fin 2) * 40 ≤ (i 1).val ∧ (i 1).val < win2_3.index ⟨(i 0).val / 5000, hlt⟩ (1 : Fin 2) * 40 + 40
    rw [e1]; omega

/-- After the run the output array holds the reference's transform of the arrays the region was entered with. -/
theorem array_eq (V : (c : Dev nD) → (b : Ref sig .tc) → Buf (Elt Ideal) ((c : Thread nD τ).loc b)) (c : Dev nD) :
    (Cert.KernelIdeal.Gen.dat2 (F := Ideal) V c).arrAt 3 cfg2.N
      = Cert.ReferenceIdeal.Layers.scaledMatmul2 (V c main_v33) (V c main_v34) (V c main_arg5) :=
  (Gen.dat2 (F := Ideal) V c).arrAt_eq_of_cover 3 _ (fun t _ => flushed_eq V c t) cover

end Cert.KernelIdeal.Transform2
end
-- ==== Proof.NormBias2.lean ====
/-
  Layer two's tail on the kernel side: the scaled aggregate plus bias, then the row-wise log-softmax. The region visits
  20 points; point `t` handles rows `5000 t … 5000 t + 4999` of the `[100000, 40]` aggregate `A`, of the one-column
  normalisation `n` and all of the one-row bias `b`, and writes back the same rows of the result. With
  `y (r, e) = A (r, e) · n (r, 0) + b (0, e)` and `M r` the maximum of row `r` of `y` (a fold of `max` from `-∞` over the
  40 columns), entry `(r, e)` of the result is `(y (r, e) − M r) − log (Σ_k exp (y (r, k) − M r))` on both sides: a row
  of the result depends on that row of `y` only, and the blocks tile the rows.
-/
import proofs.«173783_j58110907515587_1_alg».proof.Proof.Gen.KernelIdeal.Frame
import proofs.«173783_j58110907515587_1_alg».proof.Proof.RefLayers
import proofs.«173783_j58110907515587_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Cert.KernelIdeal Cert.KernelIdeal.Gen
open Idealize.ShloMosaic.ValueIdx

namespace Cert.KernelIdeal.NormBias2

/-- The zero offsets of a whole-block access, however they are spelt. -/
theorem hz : (![0, 0] : Fin 2 → Nat) = fun _ => 0 := funext fun a => by fin_cases a <;> rfl

/-- The log-softmax of ONE row `f` of 40 entries, at column `e`: the entry less the row's maximum, less the logarithm of
    the sum of the exponentials of the row's entries less the maximum. The maximum is a fold from `-∞`, never evaluated. -/
def logSoftmaxRow (f : Fin 40 → EReal) (e : Fin 40) : EReal :=
  (f e - (Finset.univ : Finset (Fin 40)).fold max (Ideal.ofBits .f32 0xFF800000#32) f)
    - Ideal.log (∑ k : Fin 40, Ideal.exp (f k - (Finset.univ : Finset (Fin 40)).fold max (Ideal.ofBits .f32 0xFF800000#32) f))

/-! ## Layout and reduction facts, over variables -/

/-- A vector of `a` entries recast as one column reads, at `(q, u)`, entry `q`: the two indices have the same row-major
    position. -/
theorem shapeCast_a_a1_apply {α : Type} {a : ℕ} (v : (⟨1, ![a]⟩ : Shape).Idx → α)
    (h : (⟨1, ![a]⟩ : Shape).ShapeCasts ⟨2, ![a, 1]⟩) (q : Fin a) (u : Fin 1) :
    shapeCast ⟨2, ![a, 1]⟩ v h (ix2 q u) = v (ix1 q) := by
  refine shapeCast_apply v h (ix2 q u) (ix1 q) ?_
  rw [Shape.rowMajor_val_one, Shape.rowMajor_val_two]
  show q.val = q.val * 1 + u.val
  have := u.isLt
  omega

/-- The row index `q` with column `k` put back is `(q, k)`. -/
theorem lift_ix2 {m n : ℕ} (h : (⟨2, ![m, n]⟩ : Shape).Reduces [1] (⟨1, ![m]⟩ : Shape)) (q : Fin m)
    (k : Fin ((⟨2, ![m, n]⟩ : Shape).size 1)) : h.lift (ix1 q) k = ix2 q (⟨k.val, k.isLt⟩ : Fin n) := by
  funext c; apply Fin.ext
  fin_cases c <;> rfl

/-- The body's lane maximum at row `q`: the fold of `max` from `-∞` over the row's 40 entries. -/
theorem rowMax_kernel {m : ℕ} (y : FVec Ideal ⟨2, ![m, 40]⟩ .f32) (h : (⟨2, ![m, 40]⟩ : Shape).Reduces [1] ⟨1, ![m]⟩)
    (hφ : FKind.Formats .f32) (hacc : (0xFF800000#32 : BitVec 32) = FKind.maximumf.neutral .f32 hφ) (q : Fin m) :
    multiReduction .maximumf [1] ⟨1, ![m]⟩ y 0xFF800000#32 h hφ hacc (ix1 q)
      = (Finset.univ : Finset (Fin 40)).fold max (Ideal.ofBits .f32 0xFF800000#32) (fun k => y (ix2 q k)) := by
  refine (Ideal.multiReduction_maximumf_single y _ h hφ hacc (ix1 q)).trans ?_
  have hf : (y ∘ h.lift (ix1 q)) = fun k : Fin 40 => y (ix2 q k) := funext fun k => congrArg y (lift_ix2 h q k)
  exact congrArg (fun f => Finset.fold max (Ideal.ofBits .f32 0xFF800000#32) f (Finset.univ : Finset (Fin 40))) hf

/-- The body's lane sum at row `q`: the sum of the row's 40 entries. -/
theorem rowSum_kernel {m : ℕ} (y : FVec Ideal ⟨2, ![m, 40]⟩ .f32) (h : (⟨2, ![m, 40]⟩ : Shape).Reduces [1] ⟨1, ![m]⟩)
    (hφ : FKind.Formats .f32) (hacc : (0x00000000#32 : BitVec 32) = FKind.add.neutral .f32 hφ) (q : Fin m) :
    multiReduction .add [1] ⟨1, ![m]⟩ y 0x00000000#32 h hφ hacc (ix1 q) = ∑ k : Fin 40, y (ix2 q k) := by
  refine (Ideal.multiReduction_add_single y _ h hφ hacc (ix1 q)).trans ?_
  exact Finset.sum_congr rfl fun k _ => congrArg y (lift_ix2 h q k)

/-- The host's reduce with a maximum body from `-∞` along the rows, at row `r`: the same fold. -/
theorem rowMax_host {m : ℕ} (y : FVec Ideal ⟨2, ![m, 40]⟩ .f32) (h' : (⟨2, ![m, 40]⟩ : Shape).ReducesTo [1] ⟨1, ![m]⟩)
    (h : (⟨2, ![m, 40]⟩ : Shape).Reduces [1] ⟨1, ![m]⟩) (hu : 0 < (⟨0, ![]⟩ : Shape).numel) (r : Fin m) :
    Host.reduce (FloatOps.maximumf (F := Ideal)) y (constant (F := Ideal) ⟨0, ![]⟩ .f32 0xFF800000#32) h' hu (ix1 r)
      = (Finset.univ : Finset (Fin 40)).fold max (Ideal.ofBits .f32 0xFF800000#32) (fun k => y (ix2 r k)) := by
  rw [Host.reduce_eq_fold_single FloatOps.maximumf y _ h' h hu]
  have hf : (y ∘ h.lift (ix1 r)) = fun k : Fin 40 => y (ix2 r k) := funext fun k => congrArg y (lift_ix2 h r k)
  exact congrArg (fun f => Finset.fold max (Ideal.ofBits .f32 0xFF800000#32) f (Finset.univ : Finset (Fin 40))) hf

/-- The host's reduce with an add body from zero along the rows, at row `r`: the same sum. -/
theorem rowSum_host {m : ℕ} (y : FVec Ideal ⟨2, ![m, 40]⟩ .f32) (h' : (⟨2, ![m, 40]⟩ : Shape).ReducesTo [1] ⟨1, ![m]⟩)
    (h : (⟨2, ![m, 40]⟩ : Shape).Reduces [1] ⟨1, ![m]⟩) (hu : 0 < (⟨0, ![]⟩ : Shape).numel) (r : Fin m) :
    Host.reduceAdd (F := Ideal) y (constant (F := Ideal) ⟨0, ![]⟩ .f32 0x00000000#32) h' hu (ix1 r)
      = ∑ k : Fin 40, y (ix2 r k) := by
  show Ideal.hostReduceAdd h' y (Ideal.ofBits .f32 0x00000000#32) (ix1 r) = _
  rw [Ideal.hostReduceAdd_single h' h, Ideal.ofBits_zero_f32, zero_add]
  exact Finset.sum_congr rfl fun k _ => congrArg y (lift_ix2 h r k)

/-- Against `-∞` a maximum is its other operand. -/
theorem max_negInf (x : EReal) : max (Ideal.ofBits .f32 0xFF800000#32) x = x := by
  have hb : Ideal.ofBits .f32 0xFF800000#32 = ⊥ := by simp [Ideal.ofBits, Ideal.ieee]
  rw [hb]
  exact max_eq_right bot_le

/-- The exponential and the logarithm, the kernel's and the host's, are one function each on the extended reals, taken
    entry by entry. -/
theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp (F := Ideal) x i = Ideal.exp (x i) := rfl
theorem hostLog_apply {s : Shape} (x : FVec Ideal s .f32) (i : s.Idx) : Host.log (F := Ideal) x i = Ideal.log (x i) := rfl

/-! ## The body's log-softmax over a variable block -/

/-- The body's reductions and subtractions over a block `y`, at entry `(q, e)`: the log-softmax of row `q` of `y`. -/
theorem softmax_body (y : FVec Ideal S5000x40 .f32) (hr : S5000x40.Reduces [1] S5000) (hc : S5000.ShapeCasts S5000x1)
    (hb : S5000x1.Broadcasts S5000x40) (hφ : FKind.Formats .f32)
    (hmax : (0xFF800000#32 : BitVec 32) = FKind.maximumf.neutral .f32 hφ)
    (hadd : (0x00000000#32 : BitVec 32) = FKind.add.neutral .f32 hφ) (q : Fin 5000) (e : Fin 40) :
    subf (subf y (broadcastTo S5000x40 (shapeCast S5000x1 (multiReduction .maximumf [1] S5000 y 0xFF800000#32 hr hφ hmax) hc) hb))
        (broadcastTo S5000x40
          (log (shapeCast S5000x1
            (multiReduction .add [1] S5000
              (exp (subf y (broadcastTo S5000x40 (shapeCast S5000x1 (multiReduction .maximumf [1] S5000 y 0xFF800000#32 hr hφ hmax) hc) hb)))
              0x00000000#32 hr hφ hadd) hc)) hb) (ix2 q e)
      = logSoftmaxRow (fun k => y (ix2 q k)) e := by
  have hM : ∀ k : Fin 40,
      broadcastTo S5000x40 (shapeCast S5000x1 (multiReduction .maximumf [1] S5000 y 0xFF800000#32 hr hφ hmax) hc) hb (ix2 q k)
        = (Finset.univ : Finset (Fin 40)).fold max (Ideal.ofBits .f32 0xFF800000#32) (fun k => y (ix2 q k)) := fun k => by
    rw [broadcastTo_a1_ab_apply, shapeCast_a_a1_apply, rowMax_kernel]
  rw [subf_apply, subf_apply, hM e, broadcastTo_a1_ab_apply, log_apply, shapeCast_a_a1_apply, rowSum_kernel]
  unfold logSoftmaxRow
  refine congrArg (fun s => _ - Ideal.log s) (Finset.sum_congr rfl fun k _ => ?_)
  rw [exp_apply, subf_apply, hM k]

/-- The body's arithmetic at entry `(q, e)` of a block: the log-softmax of row `q` of the scaled aggregate plus bias. -/
theorem pay_apply (x0 : Vec Ideal S5000x40 .f32) (x1 : Vec Ideal S5000x1 .f32) (x2 : Vec Ideal S1x40 .f32)
    (q : Fin 5000) (e : Fin 40) :
    k3_pay1 (F := Ideal) x0 x1 x2 (ix2 q e)
      = logSoftmaxRow (fun k => x0 (ix2 q k) * x1 (ix2 q (0 : Fin 1)) + x2 (ix2 (0 : Fin 1) k)) e := by
  unfold k3_pay1
  simp only [shapeCast_self]
  refine (softmax_body _ _ _ _ _ _ _ q e).trans ?_
  refine congrArg (fun f => logSoftmaxRow f e) (funext fun k => ?_)
  rw [addf_apply, mulf_apply, broadcastTo_a1_ab_apply, broadcastTo_1b_ab_apply]

/-! ## The reference at an index -/

/-- The reference's row-wise log-softmax of an array `y`, at entry `(r, e)`: the log-softmax of row `r` of `y` (its
    maximum is taken from `-∞` and once more against `-∞`, which changes nothing). -/
theorem ref_softmax_apply (y : FVec Ideal S100000x40 .f32) (r : Fin 100000) (e : Fin 40) :
    Cert.ReferenceIdeal.Layers.logSoftmaxRows y (ix2 r e) = logSoftmaxRow (fun k => y (ix2 r k)) e := by
  have hM : ∀ k : Fin 40, Cert.ReferenceIdeal.Layers.rowMaxSpread y (ix2 r k)
      = (Finset.univ : Finset (Fin 40)).fold max (Ideal.ofBits .f32 0xFF800000#32) (fun k => y (ix2 r k)) := fun k => by
    unfold Cert.ReferenceIdeal.Layers.rowMaxSpread
    rw [broadcastInDim_a1_ab_apply, broadcastInDim_a_a1_apply, maximumf_apply,
      rowMax_host y _ (by decide) _ r]
    exact max_negInf _
  unfold Cert.ReferenceIdeal.Layers.logSoftmaxRows
  rw [subf_apply, subf_apply, hM e, broadcastInDim_a1_ab_apply, hostLog_apply, broadcastInDim_a_a1_apply,
    rowSum_host _ _ (by decide) _ r]
  unfold logSoftmaxRow
  refine congrArg (fun s => _ - Ideal.log s) (Finset.sum_congr rfl fun k _ => ?_)
  rw [hostExp_apply, subf_apply, hM k]

/-- The reference's layer at any index `i` of the array: the log-softmax of row `i 0` of the scaled aggregate plus bias. -/
theorem ref_apply_idx (A : FVec Ideal S100000x40 .f32) (n : FVec Ideal S100000x1 .f32) (b : FVec Ideal S1x40 .f32)
    (i : S100000x40.Idx) :
    Cert.ReferenceIdeal.Layers.logSoftmaxRows (Cert.ReferenceIdeal.Layers.normBias2 A n b) i
      = logSoftmaxRow (fun k => A (ix2 (i 0) k) * n (ix2 (i 0) (0 : Fin 1)) + b (ix2 (0 : Fin 1) k)) (i 1) := by
  obtain ⟨r, e, rfl⟩ : ∃ (r : Fin 100000) (e : Fin 40), i = ix2 r e := ⟨i 0, i 1, eq_ix2 i⟩
  refine (ref_softmax_apply _ r e).trans ?_
  refine congrArg (fun f => logSoftmaxRow f e) (funext fun k => ?_)
  unfold Cert.ReferenceIdeal.Layers.normBias2
  rw [addf_apply, mulf_apply, broadcastInDim_a1_ab_apply, broadcastInDim_1b_ab_apply]

/-- The windows' block indices, decided over the grid: the three row-blocked windows are at block `t` along the rows
    and block 0 along the columns; the bias window stays at block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the layer's result on the arrays as the region finds them: entry `(q, e)` of
    the block is entry `(5000 t + q, e)` of the array, and row `q` of the input blocks is row `5000 t + q` of the aggregate
    and of the normalisation, with all of the bias, on both sides. -/
theorem flushed_eq (V : (c : Dev nD) → (b : Ref sig .tc) → Buf (Elt Ideal) ((c : Thread nD τ).loc b)) (c : Dev nD)
    (t : Fin cfg3.N) :
    (dat3 (F := Ideal) V c).flushed 3 t
      = ((cfg3.win 3).blk t).view.read (Elt Ideal)
          (Cert.ReferenceIdeal.Layers.logSoftmaxRows
            (Cert.ReferenceIdeal.Layers.normBias2 (V c main_v45) (V c main_v46) (V c main_v47))) := by
  show (cfg3.win 3).cut (grid3.coords t) ((dat3 V c).after 3 t) = _
  rw [after3_3]
  unfold out3_3
  rw [View.canon_unit_zero hz]
  simp only [View.ld_unit_zero (S := S5000x40) hz, View.ld_unit_zero (S := S5000x1) hz, View.ld_unit_zero (S := S1x40) hz]
  obtain ⟨e00, e01, e10, e11, e20, e21, e30, e31⟩ := idx_facts t
  funext y
  obtain ⟨q, e, rfl⟩ : ∃ (q : Fin 5000) (e : Fin 40), y = ix2 q e := ⟨y 0, y 1, eq_ix2 y⟩
  show k3_pay1 (F := Ideal) (iblk3 V c 0 t) (iblk3 V c 1 t) (iblk3 V c 2 t) (ix2 q e)
    = Cert.ReferenceIdeal.Layers.logSoftmaxRows
        (Cert.ReferenceIdeal.Layers.normBias2 (V c main_v45) (V c main_v46) (V c main_v47))
        (((cfg3.win 3).blk t).view.emb (ix2 q e))
  refine (pay_apply _ _ _ q e).trans ?_
  rw [ref_apply_idx]
  have hq : q.val < 5000 := q.isLt
  have he : e.val < 40 := e.isLt
  have hE : (((cfg3.win 3).blk t).view.emb (ix2 q e)) 1 = e := by
    apply Fin.ext
    show win3_3.index t (1 : Fin 2) * 40 + 1 * e.val = e.val
    omega
  have h0 : ∀ k : Fin 40, (iblk3 V c 0 t : Vec Ideal S5000x40 .f32) (ix2 q k)
      = (V c main_v45 : S100000x40.Idx → Elt Ideal .f32) (ix2 ((((cfg3.win 3).blk t).view.emb (ix2 q e)) 0) k) := fun k => by
    have hk : k.val < 40 := k.isLt
    show (V c main_v45 : S100000x40.Idx → Elt Ideal .f32) (((cfg3.win 0).blk t).view.emb (ix2 q k)) = _
    refine congrArg _ ?_
    funext a; apply Fin.ext
    match a with
    | ⟨0, _⟩ => show win3_0.index t (0 : Fin 2) * 5000 + 1 * q.val = win3_3.index t (0 : Fin 2) * 5000 + 1 * q.val; omega
    | ⟨1, _⟩ => show win3_0.index t (1 : Fin 2) * 40 + 1 * k.val = k.val; omega
  have h1 : (iblk3 V c 1 t : Vec Ideal S5000x1 .f32) (ix2 q (0 : Fin 1))
      = (V c main_v46 : S100000x1.Idx → Elt Ideal .f32) (ix2 ((((cfg3.win 3).blk t).view.emb (ix2 q e)) 0) (0 : Fin 1)) := by
    show (V c main_v46 : S100000x1.Idx → Elt Ideal .f32) (((cfg3.win 1).blk t).view.emb (ix2 q (0 : Fin 1))) = _
    refine congrArg _ ?_
    funext a; apply Fin.ext
    match a with
    | ⟨0, _⟩ => show win3_1.index t (0 : Fin 2) * 5000 + 1 * q.val = win3_3.index t (0 : Fin 2) * 5000 + 1 * q.val; omega
    | ⟨1, _⟩ => show win3_1.index t (1 : Fin 2) * 1 + 1 * 0 = 0; omega
  have h2 : ∀ k : Fin 40, (iblk3 V c 2 t : Vec Ideal S1x40 .f32) (ix2 (0 : Fin 1) k)
      = (V c main_v47 : S1x40.Idx → Elt Ideal .f32) (ix2 (0 : Fin 1) k) := fun k => by
    have hk : k.val < 40 := k.isLt
    show (V c main_v47 : S1x40.Idx → Elt Ideal .f32) (((cfg3.win 2).blk t).view.emb (ix2 (0 : Fin 1) k)) = _
    refine congrArg _ ?_
    funext a; apply Fin.ext
    match a with
    | ⟨0, _⟩ => show win3_2.index t (0 : Fin 2) * 1 + 1 * 0 = 0; omega
    | ⟨1, _⟩ => show win3_2.index t (1 : Fin 2) * 40 + 1 * k.val = k.val; omega
  rw [hE]
  refine congrArg (fun f => logSoftmaxRow f e) (funext fun k => ?_)
  rw [h0 k, h1, h2 k]

/-- An index of the result array is in point `t`'s block iff each coordinate is in the block's range on its axis. -/
theorem mem_blk (t : Fin cfg3.N) (i : S100000x40.Idx) :
    i ∈ ((cfg3.win 3).blk t).view.set
      ↔ ∀ a : Fin 2, win3_3.index t a * S5000x40.size a ≤ (i a).val
          ∧ (i a).val < win3_3.index t a * S5000x40.size a + S5000x40.size a := by
  show i ∈ ((View.whole main_v48).slice (win3_3.rect t)).set ↔ _
  rw [View.set_slice_whole, Rect.mem_set_unit]
  exact Iff.rfl

/-- Every index of the result array is in the block of the point its row falls in: row `r` is in block `r / 5000`. -/
theorem cover (i : S100000x40.Idx) :
    ∃ t : Fin cfg3.N, (cfg3.win 3).flush t = true ∧ i ∈ ((cfg3.win 3).blk t).view.set := by
  have hN : grid3.N = 20 := N_3
  have hi0 : (i 0).val < 100000 := (i 0).isLt
  have hi1 : (i 1).val < 40 := (i 1).isLt
  let t : Fin cfg3.N := ⟨(i 0).val / 5000, by show (i 0).val / 5000 < grid3.N; omega⟩
  obtain ⟨-, -, -, -, -, -, e30, e31⟩ := idx_facts t
  have ht : t.val = (i 0).val / 5000 := rfl
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 40 ≤ (i 1).val ∧ (i 1).val < win3_3.index t (1 : Fin 2) * 40 + 40
    omega

/-- THE ARRAY after the last point: the layer's result on the arrays as the region finds them. -/
theorem array_eq (V : (c : Dev nD) → (b : Ref sig .tc) → Buf (Elt Ideal) ((c : Thread nD τ).loc b)) (c : Dev nD) :
    (Cert.KernelIdeal.Gen.dat3 (F := Ideal) V c).arrAt 3 cfg3.N
      = Cert.ReferenceIdeal.Layers.logSoftmaxRows (Cert.ReferenceIdeal.Layers.normBias2 (V c main_v45) (V c main_v46) (V c main_v47)) :=
  (dat3 (F := Ideal) V c).arrAt_eq_of_cover 3
    (Cert.ReferenceIdeal.Layers.logSoftmaxRows (Cert.ReferenceIdeal.Layers.normBias2 (V c main_v45) (V c main_v46) (V c main_v47)))
    (fun t _ => flushed_eq V c t) cover

end Cert.KernelIdeal.NormBias2

end
-- ==== Proof.LibVectorLayout.lean ====
/-
  A reshape and a broadcast that lay a vector out the same way.

  A vector `[a]` becomes the column `[a, 1]` either by a reshape (both have row-major position `i` at `(i, 0)`) or by
  a broadcast along axis 0: entry `(i, u)` is entry `i` either way. Likewise a vector `[b]` becomes the row `[1, b]`.
  The kernel program uses the reshapes, the reference the broadcasts.
-/
import Idealize.ShloMosaic.Lib.Pipeline.Value
import Idealize.ShloMosaic.Lib.ValueIdx
import Idealize.ShloMosaic.Lib.ValueLayout
import proofs.«173783_j58110907515587_1_alg».proof.Proof.LibColumnBroadcast

namespace Idealize.ShloMosaic.ValueIdx

open Idealize.ShloMosaic

variable {α : Type}

/-- A vector cast to a column reads, at `(i, u)`, its entry `i`: the two indices have the same row-major position. -/
theorem shapeCast_vec_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) := by
  refine shapeCast_apply x h (ix2 i u) (ix1 i) ?_
  rw [Shape.rowMajor_val_two, Shape.rowMajor_val_one]
  show i.val = i.val * 1 + u.val
  omega

/-- The column made of a vector by a reshape is the column made of it by a broadcast along axis 0. -/
theorem shapeCast_vec_col_eq_broadcastInDim {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_vec_col_apply, broadcastInDim_a_a1_apply]

/-- The row made of a vector by a reshape is the row made of it by a broadcast along axis 1. -/
theorem shapeCast_vec_row_eq_broadcastInDim {b : ℕ} (x : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ x h = broadcastInDim ⟨2, ![1, b]⟩ ![1] h' x := by
  funext j
  obtain ⟨u, e, rfl⟩ : ∃ (u : Fin 1) (e : Fin b), j = ix2 u e := ⟨j 0, j 1, eq_ix2 j⟩
  rw [shapeCast_a_1a_apply, broadcastInDim_b_1b_apply]

end Idealize.ShloMosaic.ValueIdx
-- ==== Proof.KernelValue.lean ====
/-
  The idealized kernel program's result is the forward pass of the seven argument arrays.

  The last segment boundary holds, at the result buffer, what region 3 leaves in its output array. Each region leaves in
  its output array one function of its three input arrays (the dense layer it computes, block of rows by block of rows);
  each region's input arrays are, by the host stretch before it, functions of the previous region's output and of the
  argument arrays. Composed from the last region back to the first, the result is `forward` of the arguments — the
  normalisation columns and bias rows being laid out by reshapes here and by broadcasts in the reference, which is the
  same layout.
-/
import proofs.«173783_j58110907515587_1_alg».proof.Proof.KernelChase
import proofs.«173783_j58110907515587_1_alg».proof.Proof.Transform1
import proofs.«173783_j58110907515587_1_alg».proof.Proof.NormBias1
import proofs.«173783_j58110907515587_1_alg».proof.Proof.Transform2
import proofs.«173783_j58110907515587_1_alg».proof.Proof.NormBias2
import proofs.«173783_j58110907515587_1_alg».proof.Proof.LibVectorLayout

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen
open Cert.ReferenceIdeal.Layers

variable (m : (ℓ : Loc nD τ sig) → Buf (Elt Ideal) ℓ) (ρ : Dev nD → PrngReg) (c : Dev nD)

/-- A node vector handed over as a column by a reshape is the column the reference makes of it by a broadcast. -/
theorem col_eq (n : FVec Ideal S100000 .f32) :
    shapeCast S100000x1 n Facts₀.shapeCasts_S100000_S100000x1 = col n :=
  shapeCast_vec_col_eq_broadcastInDim n _ _

/-- The first bias handed over as a row by a reshape is the row the reference makes of it by a broadcast. -/
theorem row64_eq (b : FVec Ideal S64 .f32) : shapeCast S1x64 b Facts₀.shapeCasts_S64_S1x64 = row64 b :=
  shapeCast_vec_row_eq_broadcastInDim b _ _

/-- The second bias likewise. -/
theorem row40_eq (b : FVec Ideal S40 .f32) : shapeCast S1x40 b Facts₀.shapeCasts_S40_S1x40 = row40 b :=
  shapeCast_vec_row_eq_broadcastInDim b _ _

/-- After region 0: the first transform of the features. -/
theorem W6_v20 : W6 m ρ c (Proc.devRef .tc main_v20)
    = scaledMatmul1 (m ((c : Thread nD τ).loc main_arg0)) (col (degNorm (m ((c : Thread nD τ).loc main_arg1))))
        (m ((c : Thread nD τ).loc main_arg3)) := by
  refine ((W6_arr m ρ c 3).trans (Transform1.array_eq (V5 m ρ) c)).trans ?_
  dsimp only [V5]
  rw [Chase.W5_arg0, Chase.W5_v19, Chase.W5_arg3, col_eq]

/-- After region 1: the hidden layer. -/
theorem W8_v33 : W8 m ρ c (Proc.devRef .tc main_v33)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W8_arr m ρ c 3).trans (NormBias1.array_eq (V7 m ρ) c)).trans ?_
  dsimp only [V7]
  rw [Chase.W7_v30, Chase.W7_v31, Chase.W7_v32, W6_v20, col_eq, row64_eq]
  rfl

/-- After region 2: the second transform, of the hidden layer. -/
theorem W10_v35 : W10 m ρ c (Proc.devRef .tc main_v35)
    = scaledMatmul2 (hidden (m ((c : Thread nD τ).loc main_arg0)) (m ((c : Thread nD τ).loc main_arg1)) (m ((c : Thread nD τ).loc main_arg2))
        (m ((c : Thread nD τ).loc main_arg3)) (m ((c : Thread nD τ).loc main_arg4)))
        (col (degNorm (m ((c : Thread nD τ).loc main_arg1)))) (m ((c : Thread nD τ).loc main_arg5)) := by
  refine ((W10_arr m ρ c 3).trans (Transform2.array_eq (V9 m ρ) c)).trans ?_
  dsimp only [V9]
  rw [Chase.W9_v33, Chase.W9_v34, Chase.W9_arg5, W8_v33, col_eq]

/-- After region 3: the result. -/
theorem W12_v48 : W12 m ρ c (Proc.devRef .tc main_v48)
    = forward (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((W12_arr m ρ c 3).trans (NormBias2.array_eq (V11 m ρ) c)).trans ?_
  dsimp only [V11]
  rw [Chase.W11_v45, Chase.W11_v46, Chase.W11_v47, W10_v35, col_eq, row40_eq]
  rfl

end Cert.KernelIdeal.KernelValue

end
-- ==== Proof.RefValue.lean ====
/-
  The reference program's result is the forward pass of the seven argument arrays.

  The reference's @main is a straight line of 96 host operations; its result buffer after the line is the fold of the
  operations' results over the launch contents. Reading the fold back, each operation's result at its own buffer is its
  function of its operands' buffers: the composed term is `forward`, layer by layer. Some operations hold their operands
  through typed references, which move contents to the buffer's own type and back along an equation between equal
  types; with those transports removed the composed term and `forward` unfolded are the same term, operation for
  operation, and no operation is ever opened.
-/
import proofs.«173783_j58110907515587_1_alg».proof.Proof.RefRun
import proofs.«173783_j58110907515587_1_alg».proof.Proof.RefGlue

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Layers

/-! ## A typed reference's transport is the identity

The operations that came from an outlined function hold their operands through typed references: contents are moved to
the buffer's own type and back along an equation between equal types. Moving there and back is the identity for any
typed reference; moving one way is the identity at each literal reference, whose type equation is between equal types. -/

/-- There and back along a typed reference is the identity. -/
theorem ofBuf_toBuf {T : BufTy} (x : TRef sig T) (v : T.Contents (Elt Ideal)) : x.ofBuf (x.toBuf v) = v := by
  obtain ⟨r, rfl, h1, h2⟩ := x
  rfl

theorem ofBuf_cst_4 (v : (⟨S_, .f32⟩ : BufTy).Contents (Elt Ideal)) : (TRef.of (T := ⟨S_, .f32⟩) main_cst_4).ofBuf v = v := rfl
theorem ofBuf_cst_7 (v : (⟨S_, .f32⟩ : BufTy).Contents (Elt Ideal)) : (TRef.of (T := ⟨S_, .f32⟩) main_cst_7).ofBuf v = v := rfl
theorem ofBuf_v8 (v : (⟨S100000, .i1⟩ : BufTy).Contents (Elt Ideal)) : (TRef.of (T := ⟨S100000, .i1⟩) main_v8).ofBuf v = v := rfl
theorem ofBuf_v11 (v : (⟨S100000, .f32⟩ : BufTy).Contents (Elt Ideal)) : (TRef.of (T := ⟨S100000, .f32⟩) main_v11).ofBuf v = v := rfl
theorem ofBuf_v14 (v : (⟨S100000, .i1⟩ : BufTy).Contents (Elt Ideal)) : (TRef.of (T := ⟨S100000, .i1⟩) main_v14).ofBuf v = v := rfl
theorem ofBuf_v17 (v : (⟨S100000, .f32⟩ : BufTy).Contents (Elt Ideal)) : (TRef.of (T := ⟨S100000, .f32⟩) main_v17).ofBuf v = v := rfl
theorem ofBuf_v38 (v : (⟨S100000x64, .f32⟩ : BufTy).Contents (Elt Ideal)) : (TRef.of (T := ⟨S100000x64, .f32⟩) main_v38).ofBuf v = v := rfl
theorem ofBuf_v59 (v : (⟨S100000x40, .f32⟩ : BufTy).Contents (Elt Ideal)) : (TRef.of (T := ⟨S100000x40, .f32⟩) main_v59).ofBuf v = v := rfl
theorem toBuf_v12 (v : (⟨S100000, .f32⟩ : BufTy).Contents (Elt Ideal)) : (TRef.of (T := ⟨S100000, .f32⟩) main_v12).toBuf v = v := rfl
theorem toBuf_v18 (v : (⟨S100000, .f32⟩ : BufTy).Contents (Elt Ideal)) : (TRef.of (T := ⟨S100000, .f32⟩) main_v18).toBuf v = v := rfl
theorem toBuf_v39 (v : (⟨S100000x64, .f32⟩ : BufTy).Contents (Elt Ideal)) : (TRef.of (T := ⟨S100000x64, .f32⟩) main_v39).toBuf v = v := rfl
theorem toBuf_v60 (v : (⟨S100000x40, .f32⟩ : BufTy).Contents (Elt Ideal)) : (TRef.of (T := ⟨S100000x40, .f32⟩) main_v60).toBuf v = v := rfl

set_option maxRecDepth 131072 in
set_option maxHeartbeats 4000000 in
/-- The fold of the reference's operations at the result buffer is `forward` of the launch contents of the arguments:
    the fold read back operation by operation, the transports removed, `forward` unfolded to its operations — one term. -/
theorem result_eq (m : (ℓ : Loc nD τ sig) → Buf (Elt Ideal) ℓ) (c : Dev nD) :
    after (RunP.ops (F := Ideal)) (launchContents m c) (Proc.devRef .tc main_v60)
      = forward (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  after_results_simp
  simp only [ofBuf_toBuf, ofBuf_cst_4, ofBuf_cst_7, ofBuf_v8, ofBuf_v11, ofBuf_v14, ofBuf_v17, ofBuf_v38, ofBuf_v59,
    toBuf_v12, toBuf_v18, toBuf_v39, toBuf_v60]
  unfold Layers.forward Layers.hidden Layers.normBiasRelu Layers.normBias2 Layers.logSoftmaxRows Layers.rowMaxSpread
    Layers.aggregate1 Layers.aggregate2 Layers.scaledMatmul1 Layers.scaledMatmul2
    Layers.degNorm Layers.degree Layers.wrappedIdx Layers.col Layers.row64 Layers.row40
  with_reducible rfl

/-- The reference's run with its result named: every weakly fair execution terminates with the result array at
    `forward` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
        = forward (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq m c), (h c).2⟩) (RunP.run (F := Ideal) m ρ)

end Cert.ReferenceIdeal.RefValue

end
-- ==== Proof.lean ====
/-
  A two-layer graph convolution, as four Pallas regions among host stretches, against its jnp reference: equal results
  on the extended reals.

  Both programs compute, from node features `X`, an edge list `(src, dst)` and the weights and biases of two layers,
      out = log_softmax_rows ( D_in · A · ((relu (D_in · A · ((D_out · X) W₁) + b₁) scaled by D_out) W₂) + b₂ )
  where `A` adds row `src e` into row `dst e` over the edges and `D_out`, `D_in` scale rows by `degree^(-1/2)` (zero where
  the degree is zero). The degree vectors and the two edge aggregations are the same host operations in both programs.
  The kernel program computes the four dense stages — scale-and-multiply, scale-bias-rectify, scale-and-multiply,
  scale-bias-log-softmax — in regions that each handle 5000 rows per grid point; the reference computes each on all
  100000 rows at once. Row `r` of a stage's output depends on row `r` of its inputs only (and on the whole weight or bias),
  so block `t` of the kernel's output is rows `5000 t … 5000 t + 4999` of the reference's, entry by entry: the matrix
  products are the same sums over the contraction index (rounding to bf16 is the identity on the extended reals), the
  row maxima the same folds, the row sums the same sums. No algebraic law beyond re-indexing is used, so finiteness of the
  inputs is never opened.
  `Cert.ReferenceIdeal.Layers.forward` is that function of the seven arguments; `KernelValue.W12_v48` reads the kernel
  program's result buffer as it, `RefValue.run` the reference's. The three frames are the generated frame certificates
  (the reference's: its run with the result dropped); the idealization rewrote nothing, so `preserves` is trivial.
-/
import proofs.«173783_j58110907515587_1_alg».proof.Defs
import proofs.«173783_j58110907515587_1_alg».proof.Proof.Gen.Kernel
import proofs.«173783_j58110907515587_1_alg».proof.Proof.Gen.Kernel.Skeleton
import proofs.«173783_j58110907515587_1_alg».proof.Proof.Gen.Kernel.Launch
import proofs.«173783_j58110907515587_1_alg».proof.Proof.Gen.Kernel.Points
import proofs.«173783_j58110907515587_1_alg».proof.Proof.Gen.Kernel.Frame
import proofs.«173783_j58110907515587_1_alg».proof.Proof.Gen.KernelIdeal
import proofs.«173783_j58110907515587_1_alg».proof.Proof.Gen.KernelIdeal.Skeleton
import proofs.«173783_j58110907515587_1_alg».proof.Proof.Gen.KernelIdeal.Launch
import proofs.«173783_j58110907515587_1_alg».proof.Proof.Gen.KernelIdeal.Points
import proofs.«173783_j58110907515587_1_alg».proof.Proof.Gen.KernelIdeal.Frame
import proofs.«173783_j58110907515587_1_alg».proof.Proof.Gen.ReferenceIdeal
import proofs.«173783_j58110907515587_1_alg».proof.Proof.Gen.Pre_finite_inputs
import proofs.«173783_j58110907515587_1_alg».proof.Proof.KernelRun
import proofs.«173783_j58110907515587_1_alg».proof.Proof.KernelValue
import proofs.«173783_j58110907515587_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both programs end with the result array at `forward` of argument arrays that agree. -/
theorem algebraic : Cert.algebraic_KernelIdeal_ReferenceIdeal := by
  intro m ρ m' ρ' _ hagree
  refine ⟨fun c => Cert.ReferenceIdeal.Layers.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.W12_v48 m ρ c), (h c).2⟩)
      (Cert.KernelIdeal.RunOut.run (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
